-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3x128x8 : Shape := ⟨4, ![2048, 3, 128, 8]⟩
abbrev S8x3 : Shape := ⟨2, ![8, 3]⟩
abbrev S8x1 : Shape := ⟨2, ![8, 1]⟩
abbrev S128x128 : Shape := ⟨2, ![128, 128]⟩
abbrev S1x128 : Shape := ⟨2, ![1, 128]⟩
abbrev S_ : Shape := ⟨0, ![]⟩

class Facts : Prop where
  bcast_S_S2048x3x128x8 : S_.BroadcastsInDim S2048x3x128x8 (![] : Fin 0 → Fin S2048x3x128x8.rank)
  reducesTo_S2048x3x128x8_S_d0_1_2_3 : S2048x3x128x8.ReducesTo [0, 1, 2, 3] S_
  h_S_ : 0 < S_.numel
  bcast_S_S8x3 : S_.BroadcastsInDim S8x3 (![] : Fin 0 → Fin S8x3.rank)
  reducesTo_S8x3_S_d0_1 : S8x3.ReducesTo [0, 1] S_
  bcast_S_S8x1 : S_.BroadcastsInDim S8x1 (![] : Fin 0 → Fin S8x1.rank)
  reducesTo_S8x1_S_d0_1 : S8x1.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  main_v23

def fn {F : FTy → Type} [FloatOps F] (main_arg0 : FVec F S2048x3x128x8 .f32) (main_arg1 : FVec F S8x3 .f32) (main_arg2 : FVec F S8x1 .f32) (main_arg3 : FVec F S128x128 .f32) (main_arg4 : FVec F S1x128 .f32) : IVec S_ 1 :=
  let main_v0 : FVec F S2048x3x128x8 .f32 := Host.absf main_arg0
  let main_cst : FVec F S_ .f32 := constant S_ .f32 0x7F800000#32
  let main_v1 : FVec F S2048x3x128x8 .f32 := broadcastInDim S2048x3x128x8 ![] bcast_S_S2048x3x128x8 main_cst
  let main_v2 : IVec S2048x3x128x8 1 := cmpf .olt main_v0 main_v1
  let main_c : IVec S_ 1 := constantI S_ 1 1#1
  let main_v3 : IVec S_ 1 := (fun x v => Host.reduce IntOp.andi x v reducesTo_S2048x3x128x8_S_d0_1_2_3 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S8x1 .f32 := Host.absf main_arg2
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S2048x3x128x8 : Shape := ⟨4, ![2048, 3, 128, 8]⟩
abbrev S8x3 : Shape := ⟨2, ![8, 3]⟩
abbrev S8x1 : Shape := ⟨2, ![8, 1]⟩
abbrev S128x128 : Shape := ⟨2, ![128, 128]⟩
abbrev S1x128 : Shape := ⟨2, ![1, 128]⟩
abbrev S2048x3x1024 : Shape := ⟨3, ![2048, 3, 1024]⟩
abbrev S2048x3072 : Shape := ⟨2, ![2048, 3072]⟩
abbrev S2048x8192 : Shape := ⟨2, ![2048, 8192]⟩
abbrev S64x3072 : Shape := ⟨2, ![64, 3072]⟩
abbrev S64x8192 : Shape := ⟨2, ![64, 8192]⟩
abbrev S64x1024 : Shape := ⟨2, ![64, 1024]⟩
abbrev S1x1 : Shape := ⟨2, ![1, 1]⟩
abbrev S64x128 : Shape := ⟨2, ![64, 128]⟩
abbrev S2048x8x1024 : Shape := ⟨3, ![2048, 8, 1024]⟩
abbrev S2048x8x128x8 : Shape := ⟨4, ![2048, 8, 128, 8]⟩

abbrev nBuf : Space → Nat
  | .hbm => 10
  | .vmem => 8
  | .smem => 0
  | _ => 0

abbrev bufTy : (tb : Table) → Fin (tcTables nBuf tb) → BufTy
  | .hbm, ⟨0, _⟩ => ⟨S2048x3x128x8, .f32⟩
  | .hbm, ⟨1, _⟩ => ⟨S8x3, .f32⟩
  | .hbm, ⟨2, _⟩ => ⟨S8x1, .f32⟩
  | .hbm, ⟨3, _⟩ => ⟨S128x128, .f32⟩
  | .hbm, ⟨4, _⟩ => ⟨S1x128, .f32⟩
  | .hbm, ⟨5, _⟩ => ⟨S2048x3x1024, .f32⟩
  | .hbm, ⟨6, _⟩ => ⟨S2048x3072, .f32⟩
  | .hbm, ⟨7, _⟩ => ⟨S2048x8192, .f32⟩
  | .hbm, ⟨8, _⟩ => ⟨S2048x8x1024, .f32⟩
  | .hbm, ⟨9, _⟩ => ⟨S2048x8x128x8, .f32⟩
  | .local _ .vmem, ⟨0, _⟩ => ⟨S64x3072, .f32⟩
  | .local _ .vmem, ⟨1, _⟩ => ⟨S64x3072, .f32⟩
  | .local _ .vmem, ⟨2, _⟩ => ⟨S8x3, .f32⟩
  | .local _ .vmem, ⟨3, _⟩ => ⟨S8x1, .f32⟩
  | .local _ .vmem, ⟨4, _⟩ => ⟨S128x128, .f32⟩
  | .local _ .vmem, ⟨5, _⟩ => ⟨S1x128, .f32⟩
  | .local _ .vmem, ⟨6, _⟩ => ⟨S64x8192, .f32⟩
  | .local _ .vmem, ⟨7, _⟩ => ⟨S64x8192, .f32⟩
  | _, _ => ⟨S2048x3x128x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x3x128x8_S2048x3x1024 : S2048x3x128x8.ShapeCasts S2048x3x1024
  shapeCasts_S2048x3x1024_S2048x3072 : S2048x3x1024.ShapeCasts S2048x3072
  inb_S64x3072_S64x1024_0_0 : ∀ a, (![0, 0] : Fin 2 → Nat) a + S64x1024.size a ≤ S64x3072.size a
  h_S64x1024 : 0 < S64x1024.numel
  shapeCasts_S64x1024_S64x1024 : S64x1024.ShapeCasts S64x1024
  inb_S64x3072_S64x1024_0_1024 : ∀ a, (![0, 1024] : Fin 2 → Nat) a + S64x1024.size a ≤ S64x3072.size a
  inb_S64x3072_S64x1024_0_2048 : ∀ a, (![0, 2048] : Fin 2 → Nat) a + S64x1024.size a ≤ S64x3072.size a
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  inb_S8x3_S1x1_0_0 : ∀ a, (![0, 0] : Fin 2 → Nat) a + S1x1.size a ≤ S8x3.size a
  h_S1x1 : 0 < S1x1.numel
  inpos_S1x1_p0_0 : ∀ a, (![0, 0] : Fin 2 → Nat) a < S1x1.size a
  inb_S8x3_S1x1_0_1 : ∀ a, (![0, 1] : Fin 2 → Nat) a + S1x1.size a ≤ S8x3.size a
  inb_S8x3_S1x1_0_2 : ∀ a, (![0, 2] : Fin 2 → Nat) a + S1x1.size a ≤ S8x3.size a
  inb_S8x1_S1x1_0_0 : ∀ a, (![0, 0] : Fin 2 → Nat) a + S1x1.size a ≤ S8x1.size a
  slices_S64x1024_o0_0_S64x128 : S64x1024.Slices ![0, 0] S64x128
  broadcasts_S1x128_S64x128 : S1x128.Broadcasts S64x128
  inb_S64x8192_S64x128_0_0 : ∀ a, (![0, 0] : Fin 2 → Nat) a + S64x128.size a ≤ S64x8192.size a
  h_S64x128 : 0 < S64x128.numel
  slices_S64x1024_o0_128_S64x128 : S64x1024.Slices ![0, 128] S64x128
  inb_S64x8192_S64x128_0_128 : ∀ a, (![0, 128] : Fin 2 → Nat) a + S64x128.size a ≤ S64x8192.size a
  slices_S64x1024_o0_256_S64x128 : S64x1024.Slices ![0, 256] S64x128
  inb_S64x8192_S64x128_0_256 : ∀ a, (![0, 256] : Fin 2 → Nat) a + S64x128.size a ≤ S64x8192.size a
  slices_S64x1024_o0_384_S64x128 : S64x1024.Slices ![0, 384] S64x128
  inb_S64x8192_S64x128_0_384 : ∀ a, (![0, 384] : Fin 2 → Nat) a + S64x128.size a ≤ S64x8192.size a
  slices_S64x1024_o0_512_S64x128 : S64x1024.Slices ![0, 512] S64x128
  inb_S64x8192_S64x128_0_512 : ∀ a, (![0, 512] : Fin 2 → Nat) a + S64x128.size a ≤ S64x8192.size a
  slices_S64x1024_o0_640_S64x128 : S64x1024.Slices ![0, 640] S64x128
  inb_S64x8192_S64x128_0_640 : ∀ a, (![0, 640] : Fin 2 → Nat) a + S64x128.size a ≤ S64x8192.size a
  slices_S64x1024_o0_768_S64x128 : S64x1024.Slices ![0, 768] S64x128
  inb_S64x8192_S64x128_0_768 : ∀ a, (![0, 768] : Fin 2 → Nat) a + S64x128.size a ≤ S64x8192.size a
  slices_S64x1024_o0_896_S64x128 : S64x1024.Slices ![0, 896] S64x128
  inb_S64x8192_S64x128_0_896 : ∀ a, (![0, 896] : Fin 2 → Nat) a + S64x128.size a ≤ S64x8192.size a
  inb_S8x3_S1x1_1_0 : ∀ a, (![1, 0] : Fin 2 → Nat) a + S1x1.size a ≤ S8x3.size a
  inb_S8x3_S1x1_1_1 : ∀ a, (![1, 1] : Fin 2 → Nat) a + S1x1.size a ≤ S8x3.size a
  inb_S8x3_S1x1_1_2 : ∀ a, (![1, 2] : Fin 2 → Nat) a + S1x1.size a ≤ S8x3.size a
  inb_S8x1_S1x1_1_0 : ∀ a, (![1, 0] : Fin 2 → Nat) a + S1x1.size a ≤ S8x1.size a
  inb_S64x8192_S64x128_0_1024 : ∀ a, (![0, 1024] : Fin 2 → Nat) a + S64x128.size a ≤ S64x8192.size a
  inb_S64x8192_S64x128_0_1152 : ∀ a, (![0, 1152] : Fin 2 → Nat) a + S64x128.size a ≤ S64x8192.size a
  inb_S64x8192_S64x128_0_1280 : ∀ a, (![0, 1280] : Fin 2 → Nat) a + S64x128.size a ≤ S64x8192.size a
  inb_S64x8192_S64x128_0_1408 : ∀ a, (![0, 1408] : Fin 2 → Nat) a + S64x128.size a ≤ S64x8192.size a
  inb_S64x8192_S64x128_0_1536 : ∀ a, (![0, 1536] : Fin 2 → Nat) a + S64x128.size a ≤ S64x8192.size a
  inb_S64x8192_S64x128_0_1664 : ∀ a, (![0, 1664] : Fin 2 → Nat) a + S64x128.size a ≤ S64x8192.size a
  inb_S64x8192_S64x128_0_1792 : ∀ a, (![0, 1792] : Fin 2 → Nat) a + S64x128.size a ≤ S64x8192.size a
  inb_S64x8192_S64x128_0_1920 : ∀ a, (![0, 1920] : Fin 2 → Nat) a + S64x128.size a ≤ S64x8192.size a
  inb_S8x3_S1x1_2_0 : ∀ a, (![2, 0] : Fin 2 → Nat) a + S1x1.size a ≤ S8x3.size a
  inb_S8x3_S1x1_2_1 : ∀ a, (![2, 1] : Fin 2 → Nat) a + S1x1.size a ≤ S8x3.size a
  inb_S8x3_S1x1_2_2 : ∀ a, (![2, 2] : Fin 2 → Nat) a + S1x1.size a ≤ S8x3.size a
  inb_S8x1_S1x1_2_0 : ∀ a, (![2, 0] : Fin 2 → Nat) a + S1x1.size a ≤ S8x1.size a
  inb_S64x8192_S64x128_0_2048 : ∀ a, (![0, 2048] : Fin 2 → Nat) a + S64x128.size a ≤ S64x8192.size a
  inb_S64x8192_S64x128_0_2176 : ∀ a, (![0, 2176] : Fin 2 → Nat) a + S64x128.size a ≤ S64x8192.size a
  inb_S64x8192_S64x128_0_2304 : ∀ a, (![0, 2304] : Fin 2 → Nat) a + S64x128.size a ≤ S64x8192.size a
  inb_S64x8192_S64x128_0_2432 : ∀ a, (![0, 2432] : Fin 2 → Nat) a + S64x128.size a ≤ S64x8192.size a
  inb_S64x8192_S64x128_0_2560 : ∀ a, (![0, 2560] : Fin 2 → Nat) a + S64x128.size a ≤ S64x8192.size a
  inb_S64x8192_S64x128_0_2688 : ∀ a, (![0, 2688] : Fin 2 → Nat) a + S64x128.size a ≤ S64x8192.size a
  inb_S64x8192_S64x128_0_2816 : ∀ a, (![0, 2816] : Fin 2 → Nat) a + S64x128.size a ≤ S64x8192.size a
  inb_S64x8192_S64x128_0_2944 : ∀ a, (![0, 2944] : Fin 2 → Nat) a + S64x128.size a ≤ S64x8192.size a
  inb_S8x3_S1x1_3_0 : ∀ a, (![3, 0] : Fin 2 → Nat) a + S1x1.size a ≤ S8x3.size a
  inb_S8x3_S1x1_3_1 : ∀ a, (![3, 1] : Fin 2 → Nat) a + S1x1.size a ≤ S8x3.size a
  inb_S8x3_S1x1_3_2 : ∀ a, (![3, 2] : Fin 2 → Nat) a + S1x1.size a ≤ S8x3.size a
  inb_S8x1_S1x1_3_0 : ∀ a, (![3, 0] : Fin 2 → Nat) a + S1x1.size a ≤ S8x1.size a
  inb_S64x8192_S64x128_0_3072 : ∀ a, (![0, 3072] : Fin 2 → Nat) a + S64x128.size a ≤ S64x8192.size a
  inb_S64x8192_S64x128_0_3200 : ∀ a, (![0, 3200] : Fin 2 → Nat) a + S64x128.size a ≤ S64x8192.size a
  inb_S64x8192_S64x128_0_3328 : ∀ a, (![0, 3328] : Fin 2 → Nat) a + S64x128.size a ≤ S64x8192.size a
  inb_S64x8192_S64x128_0_3456 : ∀ a, (![0, 3456] : Fin 2 → Nat) a + S64x128.size a ≤ S64x8192.size a
  inb_S64x8192_S64x128_0_3584 : ∀ a, (![0, 3584] : Fin 2 → Nat) a + S64x128.size a ≤ S64x8192.size a
  inb_S64x8192_S64x128_0_3712 : ∀ a, (![0, 3712] : Fin 2 → Nat) a + S64x128.size a ≤ S64x8192.size a
  inb_S64x8192_S64x128_0_3840 : ∀ a, (![0, 3840] : Fin 2 → Nat) a + S64x128.size a ≤ S64x8192.size a
  inb_S64x8192_S64x128_0_3968 : ∀ a, (![0, 3968] : Fin 2 → Nat) a + S64x128.size a ≤ S64x8192.size a
  inb_S8x3_S1x1_4_0 : ∀ a, (![4, 0] : Fin 2 → Nat) a + S1x1.size a ≤ S8x3.size a
  inb_S8x3_S1x1_4_1 : ∀ a, (![4, 1] : Fin 2 → Nat) a + S1x1.size a ≤ S8x3.size a
  inb_S8x3_S1x1_4_2 : ∀ a, (![4, 2] : Fin 2 → Nat) a + S1x1.size a ≤ S8x3.size a
  inb_S8x1_S1x1_4_0 : ∀ a, (![4, 0] : Fin 2 → Nat) a + S1x1.size a ≤ S8x1.size a
  inb_S64x8192_S64x128_0_4096 : ∀ a, (![0, 4096] : Fin 2 → Nat) a + S64x128.size a ≤ S64x8192.size a
  inb_S64x8192_S64x128_0_4224 : ∀ a, (![0, 4224] : Fin 2 → Nat) a + S64x128.size a ≤ S64x8192.size a
  inb_S64x8192_S64x128_0_4352 : ∀ a, (![0, 4352] : Fin 2 → Nat) a + S64x128.size a ≤ S64x8192.size a
  inb_S64x8192_S64x128_0_4480 : ∀ a, (![0, 4480] : Fin 2 → Nat) a + S64x128.size a ≤ S64x8192.size a
  inb_S64x8192_S64x128_0_4608 : ∀ a, (![0, 4608] : Fin 2 → Nat) a + S64x128.size a ≤ S64x8192.size a
  inb_S64x8192_S64x128_0_4736 : ∀ a, (![0, 4736] : Fin 2 → Nat) a + S64x128.size a ≤ S64x8192.size a
  inb_S64x8192_S64x128_0_4864 : ∀ a, (![0, 4864] : Fin 2 → Nat) a + S64x128.size a ≤ S64x8192.size a
  inb_S64x8192_S64x128_0_4992 : ∀ a, (![0, 4992] : Fin 2 → Nat) a + S64x128.size a ≤ S64x8192.size a
  inb_S8x3_S1x1_5_0 : ∀ a, (![5, 0] : Fin 2 → Nat) a + S1x1.size a ≤ S8x3.size a
  inb_S8x3_S1x1_5_1 : ∀ a, (![5, 1] : Fin 2 → Nat) a + S1x1.size a ≤ S8x3.size a
  inb_S8x3_S1x1_5_2 : ∀ a, (![5, 2] : Fin 2 → Nat) a + S1x1.size a ≤ S8x3.size a
  inb_S8x1_S1x1_5_0 : ∀ a, (![5, 0] : Fin 2 → Nat) a + S1x1.size a ≤ S8x1.size a
  inb_S64x8192_S64x128_0_5120 : ∀ a, (![0, 5120] : Fin 2 → Nat) a + S64x128.size a ≤ S64x8192.size a
  inb_S64x8192_S64x128_0_5248 : ∀ a, (![0, 5248] : Fin 2 → Nat) a + S64x128.size a ≤ S64x8192.size a
  inb_S64x8192_S64x128_0_5376 : ∀ a, (![0, 5376] : Fin 2 → Nat) a + S64x128.size a ≤ S64x8192.size a
  inb_S64x8192_S64x128_0_5504 : ∀ a, (![0, 5504] : Fin 2 → Nat) a + S64x128.size a ≤ S64x8192.size a
  inb_S64x8192_S64x128_0_5632 : ∀ a, (![0, 5632] : Fin 2 → Nat) a + S64x128.size a ≤ S64x8192.size a
  inb_S64x8192_S64x128_0_5760 : ∀ a, (![0, 5760] : Fin 2 → Nat) a + S64x128.size a ≤ S64x8192.size a
  inb_S64x8192_S64x128_0_5888 : ∀ a, (![0, 5888] : Fin 2 → Nat) a + S64x128.size a ≤ S64x8192.size a
  inb_S64x8192_S64x128_0_6016 : ∀ a, (![0, 6016] : Fin 2 → Nat) a + S64x128.size a ≤ S64x8192.size a
  inb_S8x3_S1x1_6_0 : ∀ a, (![6, 0] : Fin 2 → Nat) a + S1x1.size a ≤ S8x3.size a
  inb_S8x3_S1x1_6_1 : ∀ a, (![6, 1] : Fin 2 → Nat) a + S1x1.size a ≤ S8x3.size a
  inb_S8x3_S1x1_6_2 : ∀ a, (![6, 2] : Fin 2 → Nat) a + S1x1.size a ≤ S8x3.size a
  inb_S8x1_S1x1_6_0 : ∀ a, (![6, 0] : Fin 2 → Nat) a + S1x1.size a ≤ S8x1.size a
  inb_S64x8192_S64x128_0_6144 : ∀ a, (![0, 6144] : Fin 2 → Nat) a + S64x128.size a ≤ S64x8192.size a
  inb_S64x8192_S64x128_0_6272 : ∀ a, (![0, 6272] : Fin 2 → Nat) a + S64x128.size a ≤ S64x8192.size a
  inb_S64x8192_S64x128_0_6400 : ∀ a, (![0, 6400] : Fin 2 → Nat) a + S64x128.size a ≤ S64x8192.size a
  inb_S64x8192_S64x128_0_6528 : ∀ a, (![0, 6528] : Fin 2 → Nat) a + S64x128.size a ≤ S64x8192.size a
  inb_S64x8192_S64x128_0_6656 : ∀ a, (![0, 6656] : Fin 2 → Nat) a + S64x128.size a ≤ S64x8192.size a
  inb_S64x8192_S64x128_0_6784 : ∀ a, (![0, 6784] : Fin 2 → Nat) a + S64x128.size a ≤ S64x8192.size a
  inb_S64x8192_S64x128_0_6912 : ∀ a, (![0, 6912] : Fin 2 → Nat) a + S64x128.size a ≤ S64x8192.size a
  inb_S64x8192_S64x128_0_7040 : ∀ a, (![0, 7040] : Fin 2 → Nat) a + S64x128.size a ≤ S64x8192.size a
  inb_S8x3_S1x1_7_0 : ∀ a, (![7, 0] : Fin 2 → Nat) a + S1x1.size a ≤ S8x3.size a
  inb_S8x3_S1x1_7_1 : ∀ a, (![7, 1] : Fin 2 → Nat) a + S1x1.size a ≤ S8x3.size a
  inb_S8x3_S1x1_7_2 : ∀ a, (![7, 2] : Fin 2 → Nat) a + S1x1.size a ≤ S8x3.size a
  inb_S8x1_S1x1_7_0 : ∀ a, (![7, 0] : Fin 2 → Nat) a + S1x1.size a ≤ S8x1.size a
  inb_S64x8192_S64x128_0_7168 : ∀ a, (![0, 7168] : Fin 2 → Nat) a + S64x128.size a ≤ S64x8192.size a
  inb_S64x8192_S64x128_0_7296 : ∀ a, (![0, 7296] : Fin 2 → Nat) a + S64x128.size a ≤ S64x8192.size a
  inb_S64x8192_S64x128_0_7424 : ∀ a, (![0, 7424] : Fin 2 → Nat) a + S64x128.size a ≤ S64x8192.size a
  inb_S64x8192_S64x128_0_7552 : ∀ a, (![0, 7552] : Fin 2 → Nat) a + S64x128.size a ≤ S64x8192.size a
  inb_S64x8192_S64x128_0_7680 : ∀ a, (![0, 7680] : Fin 2 → Nat) a + S64x128.size a ≤ S64x8192.size a
  inb_S64x8192_S64x128_0_7808 : ∀ a, (![0, 7808] : Fin 2 → Nat) a + S64x128.size a ≤ S64x8192.size a
  inb_S64x8192_S64x128_0_7936 : ∀ a, (![0, 7936] : Fin 2 → Nat) a + S64x128.size a ≤ S64x8192.size a
  inb_S64x8192_S64x128_0_8064 : ∀ a, (![0, 8064] : Fin 2 → Nat) a + S64x128.size a ≤ S64x8192.size a
  shapeCasts_S2048x8192_S2048x8x1024 : S2048x8192.ShapeCasts S2048x8x1024
  shapeCasts_S2048x8x1024_S2048x8x128x8 : S2048x8x1024.ShapeCasts S2048x8x128x8
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3072.size a ≤ S2048x3072.size a
  hwx0_0 : ∀ i : grid0.Coords, EltTy.bits .f32 = 32 ∨ (Rect.block (s := S2048x3072) S64x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .f32 = 32 ∨ (Rect.block (s := S8x3) S8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x8192.size a ≤ S2048x8192.size a
  hwx0_5 : ∀ i : grid0.Coords, EltTy.bits .f32 = 32 ∨ (Rect.block (s := S2048x8192) S64x8192.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_v1) S64x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x8192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x3x128x8 : Shape := ⟨4, ![2048, 3, 128, 8]⟩
abbrev S8x3 : Shape := ⟨2, ![8, 3]⟩
abbrev S8x1 : Shape := ⟨2, ![8, 1]⟩
abbrev S128x128 : Shape := ⟨2, ![128, 128]⟩
abbrev S1x128 : Shape := ⟨2, ![1, 128]⟩
abbrev S2048x3x1024 : Shape := ⟨3, ![2048, 3, 1024]⟩
abbrev S2048x3072 : Shape := ⟨2, ![2048, 3072]⟩
abbrev S16384x1024 : Shape := ⟨2, ![16384, 1024]⟩
abbrev S32x3072 : Shape := ⟨2, ![32, 3072]⟩
abbrev S256x1024 : Shape := ⟨2, ![256, 1024]⟩
abbrev S32x1024 : Shape := ⟨2, ![32, 1024]⟩
abbrev S32x1x1024 : Shape := ⟨3, ![32, 1, 1024]⟩
abbrev S1x8x1 : Shape := ⟨3, ![1, 8, 1]⟩
abbrev S32x8x1024 : Shape := ⟨3, ![32, 8, 1024]⟩
abbrev S256x128 : Shape := ⟨2, ![256, 128]⟩
abbrev S2048x8x1024 : Shape := ⟨3, ![2048, 8, 1024]⟩
abbrev S2048x8x128x8 : Shape := ⟨4, ![2048, 8, 128, 8]⟩

abbrev nBuf : Space → Nat
  | .hbm => 10
  | .vmem => 8
  | .smem => 0
  | _ => 0

abbrev bufTy : (tb : Table) → Fin (tcTables nBuf tb) → BufTy
  | .hbm, ⟨0, _⟩ => ⟨S2048x3x128x8, .f32⟩
  | .hbm, ⟨1, _⟩ => ⟨S8x3, .f32⟩
  | .hbm, ⟨2, _⟩ => ⟨S8x1, .f32⟩
  | .hbm, ⟨3, _⟩ => ⟨S128x128, .f32⟩
  | .hbm, ⟨4, _⟩ => ⟨S1x128, .f32⟩
  | .hbm, ⟨5, _⟩ => ⟨S2048x3x1024, .f32⟩
  | .hbm, ⟨6, _⟩ => ⟨S2048x3072, .f32⟩
  | .hbm, ⟨7, _⟩ => ⟨S16384x1024, .f32⟩
  | .hbm, ⟨8, _⟩ => ⟨S2048x8x1024, .f32⟩
  | .hbm, ⟨9, _⟩ => ⟨S2048x8x128x8, .f32⟩
  | .local _ .vmem, ⟨0, _⟩ => ⟨S32x3072, .f32⟩
  | .local _ .vmem, ⟨1, _⟩ => ⟨S32x3072, .f32⟩
  | .local _ .vmem, ⟨2, _⟩ => ⟨S8x3, .f32⟩
  | .local _ .vmem, ⟨3, _⟩ => ⟨S8x1, .f32⟩
  | .local _ .vmem, ⟨4, _⟩ => ⟨S128x128, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | _, _ => ⟨S2048x3x128x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2048x3x128x8_S2048x3x1024 : S2048x3x128x8.ShapeCasts S2048x3x1024
  shapeCasts_S2048x3x1024_S2048x3072 : S2048x3x1024.ShapeCasts S2048x3072
  inb_S32x3072_S32x3072_0_0 : ∀ a, (![0, 0] : Fin 2 → Nat) a + S32x3072.size a ≤ S32x3072.size a
  h_S32x3072 : 0 < S32x3072.numel
  shapeCasts_S32x3072_S32x3072 : S32x3072.ShapeCasts S32x3072
  inb_S8x3_S8x3_0_0 : ∀ a, (![0, 0] : Fin 2 → Nat) a + S8x3.size a ≤ S8x3.size a
  h_S8x3 : 0 < S8x3.numel
  slices_S32x3072_o0_0_S32x1024 : S32x3072.Slices ![0, 0] S32x1024
  shapeCasts_S32x1024_S32x1x1024 : S32x1024.ShapeCasts S32x1x1024
  slices_S8x3_o0_0_S8x1 : S8x3.Slices ![0, 0] S8x1
  shapeCasts_S8x1_S1x8x1 : S8x1.ShapeCasts S1x8x1
  broadcasts_S32x1x1024_S32x8x1024 : S32x1x1024.Broadcasts S32x8x1024
  broadcasts_S1x8x1_S32x8x1024 : S1x8x1.Broadcasts S32x8x1024
  slices_S32x3072_o0_1024_S32x1024 : S32x3072.Slices ![0, 1024] S32x1024
  slices_S8x3_o0_1_S8x1 : S8x3.Slices ![0, 1] S8x1
  slices_S32x3072_o0_2048_S32x1024 : S32x3072.Slices ![0, 2048] S32x1024
  slices_S8x3_o0_2_S8x1 : S8x3.Slices ![0, 2] S8x1
  inb_S8x1_S8x1_0_0 : ∀ a, (![0, 0] : Fin 2 → Nat) a + S8x1.size a ≤ S8x1.size a
  h_S8x1 : 0 < S8x1.numel
  shapeCasts_S32x8x1024_S256x1024 : S32x8x1024.ShapeCasts S256x1024
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  slices_S256x1024_o0_0_S256x128 : S256x1024.Slices ![0, 0] S256x128
  broadcasts_S1x128_S256x128 : S1x128.Broadcasts S256x128
  inb_S256x1024_S256x128_0_0 : ∀ a, (![0, 0] : Fin 2 → Nat) a + S256x128.size a ≤ S256x1024.size a
  h_S256x128 : 0 < S256x128.numel
  slices_S256x1024_o0_128_S256x128 : S256x1024.Slices ![0, 128] S256x128
  inb_S256x1024_S256x128_0_128 : ∀ a, (![0, 128] : Fin 2 → Nat) a + S256x128.size a ≤ S256x1024.size a
  slices_S256x1024_o0_256_S256x128 : S256x1024.Slices ![0, 256] S256x128
  inb_S256x1024_S256x128_0_256 : ∀ a, (![0, 256] : Fin 2 → Nat) a + S256x128.size a ≤ S256x1024.size a
  slices_S256x1024_o0_384_S256x128 : S256x1024.Slices ![0, 384] S256x128
  inb_S256x1024_S256x128_0_384 : ∀ a, (![0, 384] : Fin 2 → Nat) a + S256x128.size a ≤ S256x1024.size a
  slices_S256x1024_o0_512_S256x128 : S256x1024.Slices ![0, 512] S256x128
  inb_S256x1024_S256x128_0_512 : ∀ a, (![0, 512] : Fin 2 → Nat) a + S256x128.size a ≤ S256x1024.size a
  slices_S256x1024_o0_640_S256x128 : S256x1024.Slices ![0, 640] S256x128
  inb_S256x1024_S256x128_0_640 : ∀ a, (![0, 640] : Fin 2 → Nat) a + S256x128.size a ≤ S256x1024.size a
  slices_S256x1024_o0_768_S256x128 : S256x1024.Slices ![0, 768] S256x128
  inb_S256x1024_S256x128_0_768 : ∀ a, (![0, 768] : Fin 2 → Nat) a + S256x128.size a ≤ S256x1024.size a
  slices_S256x1024_o0_896_S256x128 : S256x1024.Slices ![0, 896] S256x128
  inb_S256x1024_S256x128_0_896 : ∀ a, (![0, 896] : Fin 2 → Nat) a + S256x128.size a ≤ S256x1024.size a
  shapeCasts_S16384x1024_S2048x8x1024 : S16384x1024.ShapeCasts S2048x8x1024
  shapeCasts_S2048x8x1024_S2048x8x128x8 : S2048x8x1024.ShapeCasts S2048x8x128x8
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x3072.size a ≤ S2048x3072.size a
  hwx0_0 : ∀ i : grid0.Coords, EltTy.bits .f32 = 32 ∨ (Rect.block (s := S2048x3072) S32x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x3.size a ≤ S8x3.size a
  hwx0_1 : ∀ i : grid0.Coords, EltTy.bits .f32 = 32 ∨ (Rect.block (s := S8x3) S8x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S8x1.size a
  hwx0_2 : ∀ i : grid0.Coords, EltTy.bits .f32 = 32 ∨ (Rect.block (s := S8x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_v1) S32x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.TileSpec.lean ====
/-
  The network's result as one function of its arguments, index by index, at the ideal values.

  The input is seen as an M×3072 array X: row b holds, one after another, the three input channels of sample b, each as
  1024 positions. For an output channel co the 1×1 convolution over the three channels, its bias and the rectifier give

      act(b, co, p) = max(((X(b, p)·wc(co,0) + X(b, 1024+p)·wc(co,1)) + X(b, 2048+p)·wc(co,2)) + bc(co,0), 0).

  The 1024 positions are cut into eight chunks of 128 columns. Each chunk is multiplied by the same 128×128 tile W and the
  row B is added: at position l, which lies in chunk l / 128 at column l % 128,

      tile(b, co, l) = (∑ c < 128, act(b, co, 128·(l / 128) + c) · W(c, l % 128)) + B(0, l % 128).

  `G3` is `tile` as an M×8×1024 array. Two other layouts of the same numbers occur: rows b with the eight channels side
  by side (M×8192, column co·1024 + l), and rows 8·b + co (8M×1024). Both list the numbers in the same row-major order
  as `G3`, so recasting either of them to M×8×1024 gives `G3`.

  Every definition is generic in the number of rows M: a value at row b depends on row b of X only, so a block of rows of
  any of these arrays is the same function of the same block of rows of X.
-/
import Idealize.ShloMosaic.PureOps.Ideal
import Idealize.ShloMosaic.Lib.ValueIdx
import Idealize.ShloMosaic.Lib.Pipeline.Value

noncomputable section

namespace Cert.TileSpec

open Idealize.ShloMosaic Idealize.ShloMosaic.ValueIdx

variable {M : Nat} (X : FVec Ideal ⟨2, ![M, 3072]⟩ .f32) (wc : FVec Ideal ⟨2, ![8, 3]⟩ .f32)
  (bc : FVec Ideal ⟨2, ![8, 1]⟩ .f32) (W : FVec Ideal ⟨2, ![128, 128]⟩ .f32) (B : FVec Ideal ⟨2, ![1, 128]⟩ .f32)

/-- Column `off + p` of a row of X, for a position `p` of one of the three channels. -/
abbrev chanCol (off : Nat) (hoff : off + 1024 ≤ 3072) (p : Fin 1024) : Fin 3072 := ⟨off + p.val, by have := p.isLt; omega⟩

/-- The rectified 1×1 convolution of sample `b` at output channel `co` and position `p`. -/
def act (b : Fin M) (co : Fin 8) (p : Fin 1024) : Ideal .f32 :=
  max (((X (ix2 b (chanCol 0 (by omega) p)) * wc (ix2 co (0 : Fin 3))
        + X (ix2 b (chanCol 1024 (by omega) p)) * wc (ix2 co (1 : Fin 3)))
        + X (ix2 b (chanCol 2048 (by omega) p)) * wc (ix2 co (2 : Fin 3)))
        + bc (ix2 co (0 : Fin 1))) (Scalar.ofBits (F := Ideal) .f32 0x00000000#32)

/-- The first position of the chunk that holds position `l`, plus `c`. -/
abbrev chunkPos (l : Fin 1024) (c : Fin 128) : Fin 1024 :=
  ⟨l.val / 128 * 128 + c.val, by have := l.isLt; have := c.isLt; omega⟩

/-- The column of position `l` inside its chunk. -/
abbrev chunkCol (l : Fin 1024) : Fin 128 := ⟨l.val % 128, Nat.mod_lt _ (by omega)⟩

/-- The chunk of `act` that holds position `l`, times the tile, plus the bias row, at `l`'s column. -/
def tile (b : Fin M) (co : Fin 8) (l : Fin 1024) : Ideal .f32 :=
  (∑ c : Fin 128, act X wc bc b co (chunkPos l c) * W (ix2 c (chunkCol l))) + B (ix2 (0 : Fin 1) (chunkCol l))

/-- `tile` depends on the values of its three coordinates only. -/
theorem tile_congr {b b' : Fin M} {co co' : Fin 8} {l l' : Fin 1024} (hb : b.val = b'.val) (hco : co.val = co'.val)
    (hl : l.val = l'.val) : tile X wc bc W B b co l = tile X wc bc W B b' co' l' := by
  obtain rfl := Fin.ext hb; obtain rfl := Fin.ext hco; obtain rfl := Fin.ext hl; rfl

/-- The result as an M×8×1024 array. -/
def G3 : FVec Ideal ⟨3, ![M, 8, 1024]⟩ .f32 := fun i => tile X wc bc W B (i 0) (i 1) (i 2)

/-- The layout with the eight channels side by side in a row: column `co·1024 + l`. -/
def outK : FVec Ideal ⟨2, ![M, 8192]⟩ .f32 := fun j =>
  tile X wc bc W B (j 0) ⟨(j 1).val / 1024, by have := idx2_lt1 j; omega⟩ ⟨(j 1).val % 1024, Nat.mod_lt _ (by omega)⟩

/-- The layout with one row per sample and channel: row `8·b + co`. -/
def outR (R : Nat) (hR : R = 8 * M) : FVec Ideal ⟨2, ![R, 1024]⟩ .f32 := fun j =>
  tile X wc bc W B ⟨(j 0).val / 8, by have := idx2_lt0 j; omega⟩ ⟨(j 0).val % 8, Nat.mod_lt _ (by omega)⟩ (j 1)

/-- Recast to M×8×1024, the side-by-side layout is `G3`: entry (b, co, l) sits at column co·1024 + l of row b. -/
theorem cast_outK (h : (⟨2, ![M, 8192]⟩ : Shape).ShapeCasts ⟨3, ![M, 8, 1024]⟩) :
    shapeCast ⟨3, ![M, 8, 1024]⟩ (outK X wc bc W B) h = G3 X wc bc W B := by
  funext i
  have h1 : (i 1).val < 8 := (i 1).isLt
  have h2 : (i 2).val < 1024 := (i 2).isLt
  refine (shapeCast_apply _ h i (ix2 (i 0) ⟨(i 1).val * 1024 + (i 2).val, by omega⟩) ?_).trans ?_
  · rw [Shape.rowMajor_val_two, Shape.rowMajor_val_three]
    show (i 0).val * 8192 + ((i 1).val * 1024 + (i 2).val) = ((i 0).val * 8 + (i 1).val) * 1024 + (i 2).val
    omega
  · exact tile_congr X wc bc W B rfl (by show ((i 1).val * 1024 + (i 2).val) / 1024 = (i 1).val; omega)
      (by show ((i 1).val * 1024 + (i 2).val) % 1024 = (i 2).val; omega)

/-- Recast to M×8×1024, the layout by sample and channel is `G3`: entry (b, co, l) sits at column l of row 8·b + co. -/
theorem cast_outR (R : Nat) (hR : R = 8 * M) (h : (⟨2, ![R, 1024]⟩ : Shape).ShapeCasts ⟨3, ![M, 8, 1024]⟩) :
    shapeCast ⟨3, ![M, 8, 1024]⟩ (outR X wc bc W B R hR) h = G3 X wc bc W B := by
  funext i
  have h0 : (i 0).val < M := (i 0).isLt
  have h1 : (i 1).val < 8 := (i 1).isLt
  refine (shapeCast_apply _ h i (ix2 ⟨(i 0).val * 8 + (i 1).val, by omega⟩ (i 2)) ?_).trans ?_
  · rw [Shape.rowMajor_val_two, Shape.rowMajor_val_three]
    show ((i 0).val * 8 + (i 1).val) * 1024 + (i 2).val = ((i 0).val * 8 + (i 1).val) * 1024 + (i 2).val
    rfl
  · exact tile_congr X wc bc W B (by show ((i 0).val * 8 + (i 1).val) / 8 = (i 0).val; omega)
      (by show ((i 0).val * 8 + (i 1).val) % 8 = (i 1).val; omega) rfl

end Cert.TileSpec

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibTileChunk.lean ====
/-
  One column chunk of a row block, multiplied by a tile and shifted by a bias row, read at an index, at the ideal values.

  Let V be an m×n array, W a k×j tile, B a 1×j row, and off a column offset with off + k ≤ n. The k columns of V that
  start at off form an m×k matrix; its plain product with W into the zero accumulator, plus B repeated down the m rows,
  has at row p and column q the entry

      (∑ c, V(p, off + c) · W(c, q)) + B(0, q).

  The slice contributes the shift of the column coordinate, the product the sum over the contracted coordinate, and the
  repeated row its one row whatever p is. Nothing here depends on the number of rows m, nor on the precision the product
  was asked for: at the ideal values every precision is the exact sum.
-/
import Idealize.ShloMosaic.PureOps.Ideal.Laws
import Idealize.ShloMosaic.Lib.ValueIdx
import Idealize.ShloMosaic.Lib.Pipeline.Value
import proofs.«165852_g2000309644460178_pallasbulk_134_2_alg».proof.Proof.LibMatmulPlain

namespace Cert.LibTileChunk

open Idealize.ShloMosaic Idealize.ShloMosaic.ValueIdx

/-- The column `off + c` of an array with `n` columns, for `c` inside a chunk of `k` columns that fits. -/
abbrev shiftCol {n k : Nat} (off : Nat) (h : off + k ≤ n) (c : Fin k) : Fin n := ⟨off + c.val, by have := c.isLt; omega⟩

/-- The chunk of `k` columns of `V` at `off`, times the tile `W` into the zero accumulator, plus the row `B` repeated
    down the rows, at `(p, q)`: the sum over the chunk's columns of `V(p, off + c) · W(c, q)`, plus `B(0, q)`. -/
theorem chunk_apply {m n k j : Nat} (prec : Option ContractPrecision)
    (V : FVec Ideal ⟨2, ![m, n]⟩ .f32) (W : FVec Ideal ⟨2, ![k, j]⟩ .f32) (B : FVec Ideal ⟨2, ![1, j]⟩ .f32)
    (off : Nat) (hoff : off + k ≤ n)
    (hsl : (⟨2, ![m, n]⟩ : Shape).Slices ![0, off] ⟨2, ![m, k]⟩)
    (hb : (⟨2, ![1, j]⟩ : Shape).Broadcasts ⟨2, ![m, j]⟩) (p : Fin m) (q : Fin j) :
    addf (matmul (DotDims.plain m k j) prec (extractStridedSlice ⟨2, ![m, k]⟩ ![0, off] V hsl) W
        (constant (F := Ideal) ⟨2, ![m, j]⟩ .f32 0x00000000#32)) (broadcastTo ⟨2, ![m, j]⟩ B hb) (ix2 p q)
      = (∑ c : Fin k, V (ix2 p (shiftCol off hoff c)) * W (ix2 c q)) + B (ix2 (0 : Fin 1) q) := by
  rw [addf_apply, Cert.LibMatmulPlain.matmul_plain_zero_apply]
  congr 1
  · refine Finset.sum_congr rfl fun c _ => ?_
    congr 1
    refine extractStridedSlice_apply _ _ _ _ _ fun a => ?_
    match a with
    | ⟨0, _⟩ => show p.val = 0 + p.val; omega
    | ⟨1, _⟩ => rfl
  · refine broadcastTo_apply _ _ _ _ fun a => ?_
    match a with
    | ⟨0, _⟩ => rfl
    | ⟨1, _⟩ =>
      show q.val = if j = 1 then 0 else q.val
      split_ifs with hj
      · have := q.isLt; omega
      · rfl

end Cert.LibTileChunk
-- ==== Proof.KBlock.lean ====
/-
  What the kernel's body leaves in its 64×8192 output buffer, as one function of its five input blocks.

  The body reads a 64×3072 block of the input (64 samples; three channels of 1024 positions side by side), the 8×3
  weights, the 8×1 biases, the 128×128 tile and the 1×128 bias row. For each output channel co it forms the rectified
  1×1 convolution of the block, a 64×1024 array, cuts it into eight chunks of 128 columns, multiplies each chunk by the
  tile, adds the bias row, and stores the 64×128 result at columns co·1024 + 128·k … co·1024 + 128·k + 127. The 64 stores
  tile the buffer, and each is, on its rectangle, the specification's side-by-side layout `outK` of the same five blocks:
  so the buffer is `outK` of the blocks.
-/
import proofs.«165852_g2000309644460178_pallasbulk_134_2_alg».proof.Proof.Gen.KernelIdeal.Frame
import proofs.«165852_g2000309644460178_pallasbulk_134_2_alg».proof.Proof.TileSpec
import proofs.«165852_g2000309644460178_pallasbulk_134_2_alg».proof.Proof.LibTileChunk
import Idealize.ShloMosaic.Lib.Pipeline.Value
import Idealize.ShloMosaic.Lib.ValueIdx

set_option maxRecDepth 16384

noncomputable section

namespace Cert.KernelIdeal.Hand

open Cert.KernelIdeal Cert.KernelIdeal.Gen Cert.TileSpec Cert.LibTileChunk
open Idealize.ShloMosaic Idealize.ShloMosaic.ValueIdx

theorem hz : (![0, 0] : Fin 2 → Nat) = fun _ => 0 := funext fun a => by fin_cases a <;> rfl

/-- A load of 1024 columns of the input block starting at column `off`, at (p, n): the block at (p, off + n). -/
theorem ld_chan (x0 : Vec Ideal S64x3072 .f32) (off : Nat) (hoff : off + 1024 ≤ 3072)
    (inb : ∀ a, (![0, off] : Fin 2 → Nat) a + S64x1024.size a ≤ S64x3072.size a) (p : Fin 64) (n : Fin 1024) :
    View.ld x0 (Rect.unit (s := S64x3072) ![0, off] S64x1024.size inb) (ix2 p n) = x0 (ix2 p (chanCol off hoff n)) := by
  show x0 _ = x0 _
  refine congrArg x0 (funext fun a => Fin.ext ?_)
  match a with
  | ⟨0, _⟩ => show 0 + 1 * p.val = p.val; omega
  | ⟨1, _⟩ => show off + 1 * n.val = off + n.val; omega

/-- A load of the one weight at (co, ci), read as a scalar: the weight. -/
theorem ld_weight (x1 : Vec Ideal S8x3 .f32) (co ci : Nat) (hco : co < 8) (hci : ci < 3)
    (inb : ∀ a, (![co, ci] : Fin 2 → Nat) a + S1x1.size a ≤ S8x3.size a) (hp : ∀ a, (![0, 0] : Fin 2 → Nat) a < S1x1.size a) :
    extractAt ![0, 0] (View.ld x1 (Rect.unit (s := S8x3) ![co, ci] S1x1.size inb)) hp = x1 (ix2 ⟨co, hco⟩ ⟨ci, hci⟩) := by
  show x1 _ = x1 _
  refine congrArg x1 (funext fun a => Fin.ext ?_)
  match a with
  | ⟨0, _⟩ => show co + 1 * 0 = co; omega
  | ⟨1, _⟩ => show ci + 1 * 0 = ci; omega

/-- A load of the one bias at (co, 0), read as a scalar: the bias. -/
theorem ld_bias (x2 : Vec Ideal S8x1 .f32) (co : Nat) (hco : co < 8)
    (inb : ∀ a, (![co, 0] : Fin 2 → Nat) a + S1x1.size a ≤ S8x1.size a) (hp : ∀ a, (![0, 0] : Fin 2 → Nat) a < S1x1.size a) :
    extractAt ![0, 0] (View.ld x2 (Rect.unit (s := S8x1) ![co, 0] S1x1.size inb)) hp = x2 (ix2 ⟨co, hco⟩ (0 : Fin 1)) := by
  show x2 _ = x2 _
  refine congrArg x2 (funext fun a => Fin.ext ?_)
  match a with
  | ⟨0, _⟩ => show co + 1 * 0 = co; omega
  | ⟨1, _⟩ => rfl

/-- The same load after the body's recast of the 64×1024 array to its own shape, which changes nothing. -/
theorem cast_ld_chan (x0 : Vec Ideal S64x3072 .f32) (off : Nat) (hoff : off + 1024 ≤ 3072)
    (inb : ∀ a, (![0, off] : Fin 2 → Nat) a + S64x1024.size a ≤ S64x3072.size a) (hc : S64x1024.ShapeCasts S64x1024)
    (p : Fin 64) (n : Fin 1024) :
    shapeCast S64x1024 (View.ld x0 (Rect.unit (s := S64x3072) ![0, off] S64x1024.size inb)) hc (ix2 p n)
      = x0 (ix2 p (chanCol off hoff n)) :=
  (congrFun (shapeCast_self (s := S64x1024) (View.ld x0 (Rect.unit (s := S64x3072) ![0, off] S64x1024.size inb)) hc) (ix2 p n)).trans
    (ld_chan x0 off hoff inb p n)

/-- The body's rectified convolution for channel `co`, in the body's own spelling over its loads. -/
abbrev actVec (x0 : Vec Ideal S64x3072 .f32) (x1 : Vec Ideal S8x3 .f32) (x2 : Vec Ideal S8x1 .f32) (co : Nat)
    (i0 : ∀ a, (![0, 0] : Fin 2 → Nat) a + S64x1024.size a ≤ S64x3072.size a)
    (i1 : ∀ a, (![0, 1024] : Fin 2 → Nat) a + S64x1024.size a ≤ S64x3072.size a)
    (i2 : ∀ a, (![0, 2048] : Fin 2 → Nat) a + S64x1024.size a ≤ S64x3072.size a)
    (j0 : ∀ a, (![co, 0] : Fin 2 → Nat) a + S1x1.size a ≤ S8x3.size a)
    (j1 : ∀ a, (![co, 1] : Fin 2 → Nat) a + S1x1.size a ≤ S8x3.size a)
    (j2 : ∀ a, (![co, 2] : Fin 2 → Nat) a + S1x1.size a ≤ S8x3.size a)
    (jb : ∀ a, (![co, 0] : Fin 2 → Nat) a + S1x1.size a ≤ S8x1.size a)
    (hp : ∀ a, (![0, 0] : Fin 2 → Nat) a < S1x1.size a) (hc : S64x1024.ShapeCasts S64x1024) : FVec Ideal S64x1024 .f32 :=
  maximumf (addf (addf (addf
      (mulf (shapeCast S64x1024 (View.ld x0 (Rect.unit (s := S64x3072) ![0, 0] S64x1024.size i0)) hc)
        (broadcast S64x1024 (extractAt ![0, 0] (View.ld x1 (Rect.unit (s := S8x3) ![co, 0] S1x1.size j0)) hp)))
      (mulf (shapeCast S64x1024 (View.ld x0 (Rect.unit (s := S64x3072) ![0, 1024] S64x1024.size i1)) hc)
        (broadcast S64x1024 (extractAt ![0, 0] (View.ld x1 (Rect.unit (s := S8x3) ![co, 1] S1x1.size j1)) hp))))
      (mulf (shapeCast S64x1024 (View.ld x0 (Rect.unit (s := S64x3072) ![0, 2048] S64x1024.size i2)) hc)
        (broadcast S64x1024 (extractAt ![0, 0] (View.ld x1 (Rect.unit (s := S8x3) ![co, 2] S1x1.size j2)) hp))))
      (broadcast S64x1024 (extractAt ![0, 0] (View.ld x2 (Rect.unit (s := S8x1) ![co, 0] S1x1.size jb)) hp)))
    (broadcast S64x1024 (Scalar.ofBits (F := Ideal) .f32 0x00000000#32))

/-- It is the specification's `act` of the block, at every sample and position: each product's first factor is the
    block at the channel's column, its second the weight; the last summand is the bias. -/
theorem actVec_apply (x0 : Vec Ideal S64x3072 .f32) (x1 : Vec Ideal S8x3 .f32) (x2 : Vec Ideal S8x1 .f32) (co : Nat) (hco : co < 8)
    (i0 i1 i2 j0 j1 j2 jb hp hc) (p : Fin 64) (n : Fin 1024) :
    actVec x0 x1 x2 co i0 i1 i2 j0 j1 j2 jb hp hc (ix2 p n) = act x0 x1 x2 p ⟨co, hco⟩ n := by
  unfold act
  refine congrArg₂ max (congrArg₂ (· + ·) (congrArg₂ (· + ·) (congrArg₂ (· + ·) (congrArg₂ (· * ·) ?_ ?_)
    (congrArg₂ (· * ·) ?_ ?_)) (congrArg₂ (· * ·) ?_ ?_)) ?_) rfl
  · exact cast_ld_chan x0 0 (by omega) i0 hc p n
  · exact ld_weight x1 co 0 hco (by omega) j0 hp
  · exact cast_ld_chan x0 1024 (by omega) i1 hc p n
  · exact ld_weight x1 co 1 hco (by omega) j1 hp
  · exact cast_ld_chan x0 2048 (by omega) i2 hc p n
  · exact ld_weight x1 co 2 hco (by omega) j2 hp
  · exact ld_bias x2 co hco jb hp

/-- One store's payload in the body's spelling: the 128 columns of `A` at `off`, times the tile into the zero
    accumulator, plus the bias row repeated down the 64 rows. -/
abbrev chunkVec (A : FVec Ideal S64x1024 .f32) (x3 : Vec Ideal S128x128 .f32) (x4 : Vec Ideal S1x128 .f32) (off : Nat)
    (hsl : S64x1024.Slices ![0, off] S64x128) (hb : S1x128.Broadcasts S64x128) : FVec Ideal S64x128 .f32 :=
  addf (matmul (φ₂ := .f32) dot_S64x128_S128x128_S64x128_1_0_0_1_n_n none (extractStridedSlice S64x128 ![0, off] A hsl) x3
    (constant (F := Ideal) S64x128 .f32 0x00000000#32)) (broadcastTo S64x128 x4 hb)

/-- The store of chunk `k` of channel `co` agrees, on its rectangle, with the side-by-side layout of the five blocks:
    the local index (p, q) sits at column co·1024 + 128·k + q of row p, which is position 128·k + q of channel co, and
    that position's chunk starts at 128·k and has q as its column. -/
theorem piece_ok (x0 : Vec Ideal S64x3072 .f32) (x1 : Vec Ideal S8x3 .f32) (x2 : Vec Ideal S8x1 .f32)
    (x3 : Vec Ideal S128x128 .f32) (x4 : Vec Ideal S1x128 .f32) (co k : Nat) (hco : co < 8) (hk : k < 8)
    (i0 i1 i2 j0 j1 j2 jb hp hc) (hsl : S64x1024.Slices ![0, 128 * k] S64x128) (hb : S1x128.Broadcasts S64x128)
    (io : ∀ a, (![0, co * 1024 + 128 * k] : Fin 2 → Nat) a + S64x128.size a ≤ S64x8192.size a) (y : S64x128.Idx) :
    chunkVec (actVec x0 x1 x2 co i0 i1 i2 j0 j1 j2 jb hp hc) x3 x4 (128 * k) hsl hb y
      = outK x0 x1 x2 x3 x4 ((Rect.unit (s := S64x8192) ![0, co * 1024 + 128 * k] S64x128.size io).emb y) := by
  obtain ⟨p, q, rfl⟩ : ∃ (p : Fin 64) (q : Fin 128), y = ix2 p q := ⟨y 0, y 1, eq_ix2 y⟩
  have hq : q.val < 128 := q.isLt
  refine (chunk_apply none (actVec x0 x1 x2 co i0 i1 i2 j0 j1 j2 jb hp hc) x3 x4 (128 * k) (by omega) hsl hb p q).trans ?_
  have e : outK x0 x1 x2 x3 x4 ((Rect.unit (s := S64x8192) ![0, co * 1024 + 128 * k] S64x128.size io).emb (ix2 p q))
      = tile x0 x1 x2 x3 x4 p ⟨co, hco⟩ ⟨128 * k + q.val, by omega⟩ := by
    unfold outK
    exact tile_congr x0 x1 x2 x3 x4 (by show 0 + 1 * p.val = p.val; omega)
      (by show (co * 1024 + 128 * k + 1 * q.val) / 1024 = co; omega)
      (by show (co * 1024 + 128 * k + 1 * q.val) % 1024 = 128 * k + q.val; omega)
  rw [e]
  unfold tile
  refine congrArg₂ (· + ·) (Finset.sum_congr rfl fun c _ => congrArg₂ (· * ·) ?_ ?_) ?_
  · have hcl : c.val < 128 := c.isLt
    rw [actVec_apply x0 x1 x2 co hco]
    exact congrArg (act x0 x1 x2 p ⟨co, hco⟩) (Fin.ext (by show 128 * k + c.val = (128 * k + q.val) / 128 * 128 + c.val; omega))
  · exact congrArg x3 (congrArg (ix2 c) (Fin.ext (by show q.val = (128 * k + q.val) % 128; omega)))
  · exact congrArg x4 (congrArg (ix2 (0 : Fin 1)) (Fin.ext (by show q.val = (128 * k + q.val) % 128; omega)))

/-- THE BUFFER AFTER THE BODY is the side-by-side layout of the five blocks: its 64 stores cover it, and each agrees with
    that one function on its rectangle. The two whole loads of the tile and of the bias row read the arrays themselves. -/
theorem block_eq (x0 : Vec Ideal S64x3072 .f32) (x1 : Vec Ideal S8x3 .f32) (x2 : Vec Ideal S8x1 .f32)
    (x3 : Vec Ideal S128x128 .f32) (x4 : Vec Ideal S1x128 .f32) :
    out0_5 (F := Ideal) x0 x1 x2 x3 x4 = outK x0 x1 x2 x3 x4 := by
  funext y
  unfold out0_5
  simp only [View.ld_unit_zero (S := S128x128) hz, View.ld_unit_zero (S := S1x128) hz]
  refine View.canon_apply_of_pieces (Val := Elt Ideal) (S := S64x8192) (e := .f32) (outK x0 x1 x2 x3 x4) _ ?_ y
    (cover0_5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  intro pc hpc
  simp only [List.mem_cons, List.mem_nil_iff, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact fun x => piece_ok x0 x1 x2 x3 x4 7 7 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_896_S64x128 broadcasts_S1x128_S64x128 inb_S64x8192_S64x128_0_8064 x
  · exact fun x => piece_ok x0 x1 x2 x3 x4 7 6 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_768_S64x128 broadcasts_S1x128_S64x128 inb_S64x8192_S64x128_0_7936 x
  · exact fun x => piece_ok x0 x1 x2 x3 x4 7 5 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_640_S64x128 broadcasts_S1x128_S64x128 inb_S64x8192_S64x128_0_7808 x
  · exact fun x => piece_ok x0 x1 x2 x3 x4 7 4 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_512_S64x128 broadcasts_S1x128_S64x128 inb_S64x8192_S64x128_0_7680 x
  · exact fun x => piece_ok x0 x1 x2 x3 x4 7 3 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_384_S64x128 broadcasts_S1x128_S64x128 inb_S64x8192_S64x128_0_7552 x
  · exact fun x => piece_ok x0 x1 x2 x3 x4 7 2 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_256_S64x128 broadcasts_S1x128_S64x128 inb_S64x8192_S64x128_0_7424 x
  · exact fun x => piece_ok x0 x1 x2 x3 x4 7 1 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_128_S64x128 broadcasts_S1x128_S64x128 inb_S64x8192_S64x128_0_7296 x
  · exact fun x => piece_ok x0 x1 x2 x3 x4 7 0 (by omega) (by omega) inb_S64x3072_S64x1024_0_0 inb_S64x3072_S64x1024_0_1024 inb_S64x3072_S64x1024_0_2048 inb_S8x3_S1x1_7_0 inb_S8x3_S1x1_7_1 inb_S8x3_S1x1_7_2 inb_S8x1_S1x1_7_0 inpos_S1x1_p0_0 shapeCasts_S64x1024_S64x1024 slices_S64x1024_o0_0_S64x128 broadcasts_S1x128_S64x128 inb_S64x8192_S64x128_0_7168 x
  · exact fun x => piece_ok x0 x1 x2 x3 x4 6 7 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_896_S64x128 broadcasts_S1x128_S64x128 inb_S64x8192_S64x128_0_7040 x
  · exact fun x => piece_ok x0 x1 x2 x3 x4 6 6 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_768_S64x128 broadcasts_S1x128_S64x128 inb_S64x8192_S64x128_0_6912 x
  · exact fun x => piece_ok x0 x1 x2 x3 x4 6 5 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_640_S64x128 broadcasts_S1x128_S64x128 inb_S64x8192_S64x128_0_6784 x
  · exact fun x => piece_ok x0 x1 x2 x3 x4 6 4 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_512_S64x128 broadcasts_S1x128_S64x128 inb_S64x8192_S64x128_0_6656 x
  · exact fun x => piece_ok x0 x1 x2 x3 x4 6 3 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_384_S64x128 broadcasts_S1x128_S64x128 inb_S64x8192_S64x128_0_6528 x
  · exact fun x => piece_ok x0 x1 x2 x3 x4 6 2 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_256_S64x128 broadcasts_S1x128_S64x128 inb_S64x8192_S64x128_0_6400 x
  · exact fun x => piece_ok x0 x1 x2 x3 x4 6 1 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_128_S64x128 broadcasts_S1x128_S64x128 inb_S64x8192_S64x128_0_6272 x
  · exact fun x => piece_ok x0 x1 x2 x3 x4 6 0 (by omega) (by omega) inb_S64x3072_S64x1024_0_0 inb_S64x3072_S64x1024_0_1024 inb_S64x3072_S64x1024_0_2048 inb_S8x3_S1x1_6_0 inb_S8x3_S1x1_6_1 inb_S8x3_S1x1_6_2 inb_S8x1_S1x1_6_0 inpos_S1x1_p0_0 shapeCasts_S64x1024_S64x1024 slices_S64x1024_o0_0_S64x128 broadcasts_S1x128_S64x128 inb_S64x8192_S64x128_0_6144 x
  · exact fun x => piece_ok x0 x1 x2 x3 x4 5 7 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_896_S64x128 broadcasts_S1x128_S64x128 inb_S64x8192_S64x128_0_6016 x
  · exact fun x => piece_ok x0 x1 x2 x3 x4 5 6 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_768_S64x128 broadcasts_S1x128_S64x128 inb_S64x8192_S64x128_0_5888 x
  · exact fun x => piece_ok x0 x1 x2 x3 x4 5 5 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_640_S64x128 broadcasts_S1x128_S64x128 inb_S64x8192_S64x128_0_5760 x
  · exact fun x => piece_ok x0 x1 x2 x3 x4 5 4 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_512_S64x128 broadcasts_S1x128_S64x128 inb_S64x8192_S64x128_0_5632 x
  · exact fun x => piece_ok x0 x1 x2 x3 x4 5 3 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_384_S64x128 broadcasts_S1x128_S64x128 inb_S64x8192_S64x128_0_5504 x
  · exact fun x => piece_ok x0 x1 x2 x3 x4 5 2 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_256_S64x128 broadcasts_S1x128_S64x128 inb_S64x8192_S64x128_0_5376 x
  · exact fun x => piece_ok x0 x1 x2 x3 x4 5 1 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_128_S64x128 broadcasts_S1x128_S64x128 inb_S64x8192_S64x128_0_5248 x
  · exact fun x => piece_ok x0 x1 x2 x3 x4 5 0 (by omega) (by omega) inb_S64x3072_S64x1024_0_0 inb_S64x3072_S64x1024_0_1024 inb_S64x3072_S64x1024_0_2048 inb_S8x3_S1x1_5_0 inb_S8x3_S1x1_5_1 inb_S8x3_S1x1_5_2 inb_S8x1_S1x1_5_0 inpos_S1x1_p0_0 shapeCasts_S64x1024_S64x1024 slices_S64x1024_o0_0_S64x128 broadcasts_S1x128_S64x128 inb_S64x8192_S64x128_0_5120 x
  · exact fun x => piece_ok x0 x1 x2 x3 x4 4 7 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_896_S64x128 broadcasts_S1x128_S64x128 inb_S64x8192_S64x128_0_4992 x
  · exact fun x => piece_ok x0 x1 x2 x3 x4 4 6 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_768_S64x128 broadcasts_S1x128_S64x128 inb_S64x8192_S64x128_0_4864 x
  · exact fun x => piece_ok x0 x1 x2 x3 x4 4 5 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_640_S64x128 broadcasts_S1x128_S64x128 inb_S64x8192_S64x128_0_4736 x
  · exact fun x => piece_ok x0 x1 x2 x3 x4 4 4 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_512_S64x128 broadcasts_S1x128_S64x128 inb_S64x8192_S64x128_0_4608 x
  · exact fun x => piece_ok x0 x1 x2 x3 x4 4 3 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_384_S64x128 broadcasts_S1x128_S64x128 inb_S64x8192_S64x128_0_4480 x
  · exact fun x => piece_ok x0 x1 x2 x3 x4 4 2 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_256_S64x128 broadcasts_S1x128_S64x128 inb_S64x8192_S64x128_0_4352 x
  · exact fun x => piece_ok x0 x1 x2 x3 x4 4 1 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_128_S64x128 broadcasts_S1x128_S64x128 inb_S64x8192_S64x128_0_4224 x
  · exact fun x => piece_ok x0 x1 x2 x3 x4 4 0 (by omega) (by omega) inb_S64x3072_S64x1024_0_0 inb_S64x3072_S64x1024_0_1024 inb_S64x3072_S64x1024_0_2048 inb_S8x3_S1x1_4_0 inb_S8x3_S1x1_4_1 inb_S8x3_S1x1_4_2 inb_S8x1_S1x1_4_0 inpos_S1x1_p0_0 shapeCasts_S64x1024_S64x1024 slices_S64x1024_o0_0_S64x128 broadcasts_S1x128_S64x128 inb_S64x8192_S64x128_0_4096 x
  · exact fun x => piece_ok x0 x1 x2 x3 x4 3 7 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_896_S64x128 broadcasts_S1x128_S64x128 inb_S64x8192_S64x128_0_3968 x
  · exact fun x => piece_ok x0 x1 x2 x3 x4 3 6 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_768_S64x128 broadcasts_S1x128_S64x128 inb_S64x8192_S64x128_0_3840 x
  · exact fun x => piece_ok x0 x1 x2 x3 x4 3 5 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_640_S64x128 broadcasts_S1x128_S64x128 inb_S64x8192_S64x128_0_3712 x
  · exact fun x => piece_ok x0 x1 x2 x3 x4 3 4 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_512_S64x128 broadcasts_S1x128_S64x128 inb_S64x8192_S64x128_0_3584 x
  · exact fun x => piece_ok x0 x1 x2 x3 x4 3 3 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_384_S64x128 broadcasts_S1x128_S64x128 inb_S64x8192_S64x128_0_3456 x
  · exact fun x => piece_ok x0 x1 x2 x3 x4 3 2 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_256_S64x128 broadcasts_S1x128_S64x128 inb_S64x8192_S64x128_0_3328 x
  · exact fun x => piece_ok x0 x1 x2 x3 x4 3 1 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_128_S64x128 broadcasts_S1x128_S64x128 inb_S64x8192_S64x128_0_3200 x
  · exact fun x => piece_ok x0 x1 x2 x3 x4 3 0 (by omega) (by omega) inb_S64x3072_S64x1024_0_0 inb_S64x3072_S64x1024_0_1024 inb_S64x3072_S64x1024_0_2048 inb_S8x3_S1x1_3_0 inb_S8x3_S1x1_3_1 inb_S8x3_S1x1_3_2 inb_S8x1_S1x1_3_0 inpos_S1x1_p0_0 shapeCasts_S64x1024_S64x1024 slices_S64x1024_o0_0_S64x128 broadcasts_S1x128_S64x128 inb_S64x8192_S64x128_0_3072 x
  · exact fun x => piece_ok x0 x1 x2 x3 x4 2 7 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_896_S64x128 broadcasts_S1x128_S64x128 inb_S64x8192_S64x128_0_2944 x
  · exact fun x => piece_ok x0 x1 x2 x3 x4 2 6 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_768_S64x128 broadcasts_S1x128_S64x128 inb_S64x8192_S64x128_0_2816 x
  · exact fun x => piece_ok x0 x1 x2 x3 x4 2 5 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_640_S64x128 broadcasts_S1x128_S64x128 inb_S64x8192_S64x128_0_2688 x
  · exact fun x => piece_ok x0 x1 x2 x3 x4 2 4 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_512_S64x128 broadcasts_S1x128_S64x128 inb_S64x8192_S64x128_0_2560 x
  · exact fun x => piece_ok x0 x1 x2 x3 x4 2 3 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_384_S64x128 broadcasts_S1x128_S64x128 inb_S64x8192_S64x128_0_2432 x
  · exact fun x => piece_ok x0 x1 x2 x3 x4 2 2 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_256_S64x128 broadcasts_S1x128_S64x128 inb_S64x8192_S64x128_0_2304 x
  · exact fun x => piece_ok x0 x1 x2 x3 x4 2 1 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_128_S64x128 broadcasts_S1x128_S64x128 inb_S64x8192_S64x128_0_2176 x
  · exact fun x => piece_ok x0 x1 x2 x3 x4 2 0 (by omega) (by omega) inb_S64x3072_S64x1024_0_0 inb_S64x3072_S64x1024_0_1024 inb_S64x3072_S64x1024_0_2048 inb_S8x3_S1x1_2_0 inb_S8x3_S1x1_2_1 inb_S8x3_S1x1_2_2 inb_S8x1_S1x1_2_0 inpos_S1x1_p0_0 shapeCasts_S64x1024_S64x1024 slices_S64x1024_o0_0_S64x128 broadcasts_S1x128_S64x128 inb_S64x8192_S64x128_0_2048 x
  · exact fun x => piece_ok x0 x1 x2 x3 x4 1 7 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_896_S64x128 broadcasts_S1x128_S64x128 inb_S64x8192_S64x128_0_1920 x
  · exact fun x => piece_ok x0 x1 x2 x3 x4 1 6 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_768_S64x128 broadcasts_S1x128_S64x128 inb_S64x8192_S64x128_0_1792 x
  · exact fun x => piece_ok x0 x1 x2 x3 x4 1 5 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_640_S64x128 broadcasts_S1x128_S64x128 inb_S64x8192_S64x128_0_1664 x
  · exact fun x => piece_ok x0 x1 x2 x3 x4 1 4 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_512_S64x128 broadcasts_S1x128_S64x128 inb_S64x8192_S64x128_0_1536 x
  · exact fun x => piece_ok x0 x1 x2 x3 x4 1 3 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_384_S64x128 broadcasts_S1x128_S64x128 inb_S64x8192_S64x128_0_1408 x
  · exact fun x => piece_ok x0 x1 x2 x3 x4 1 2 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_256_S64x128 broadcasts_S1x128_S64x128 inb_S64x8192_S64x128_0_1280 x
  · exact fun x => piece_ok x0 x1 x2 x3 x4 1 1 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_128_S64x128 broadcasts_S1x128_S64x128 inb_S64x8192_S64x128_0_1152 x
  · exact fun x => piece_ok x0 x1 x2 x3 x4 1 0 (by omega) (by omega) inb_S64x3072_S64x1024_0_0 inb_S64x3072_S64x1024_0_1024 inb_S64x3072_S64x1024_0_2048 inb_S8x3_S1x1_1_0 inb_S8x3_S1x1_1_1 inb_S8x3_S1x1_1_2 inb_S8x1_S1x1_1_0 inpos_S1x1_p0_0 shapeCasts_S64x1024_S64x1024 slices_S64x1024_o0_0_S64x128 broadcasts_S1x128_S64x128 inb_S64x8192_S64x128_0_1024 x
  · exact fun x => piece_ok x0 x1 x2 x3 x4 0 7 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_896_S64x128 broadcasts_S1x128_S64x128 inb_S64x8192_S64x128_0_896 x
  · exact fun x => piece_ok x0 x1 x2 x3 x4 0 6 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_768_S64x128 broadcasts_S1x128_S64x128 inb_S64x8192_S64x128_0_768 x
  · exact fun x => piece_ok x0 x1 x2 x3 x4 0 5 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_640_S64x128 broadcasts_S1x128_S64x128 inb_S64x8192_S64x128_0_640 x
  · exact fun x => piece_ok x0 x1 x2 x3 x4 0 4 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_512_S64x128 broadcasts_S1x128_S64x128 inb_S64x8192_S64x128_0_512 x
  · exact fun x => piece_ok x0 x1 x2 x3 x4 0 3 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_384_S64x128 broadcasts_S1x128_S64x128 inb_S64x8192_S64x128_0_384 x
  · exact fun x => piece_ok x0 x1 x2 x3 x4 0 2 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_256_S64x128 broadcasts_S1x128_S64x128 inb_S64x8192_S64x128_0_256 x
  · exact fun x => piece_ok x0 x1 x2 x3 x4 0 1 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_128_S64x128 broadcasts_S1x128_S64x128 inb_S64x8192_S64x128_0_128 x
  · exact fun x => piece_ok x0 x1 x2 x3 x4 0 0 (by omega) (by omega) inb_S64x3072_S64x1024_0_0 inb_S64x3072_S64x1024_0_1024 inb_S64x3072_S64x1024_0_2048 inb_S8x3_S1x1_0_0 inb_S8x3_S1x1_0_1 inb_S8x3_S1x1_0_2 inb_S8x1_S1x1_0_0 inpos_S1x1_p0_0 shapeCasts_S64x1024_S64x1024 slices_S64x1024_o0_0_S64x128 broadcasts_S1x128_S64x128 inb_S64x8192_S64x128_0_0 x

end Cert.KernelIdeal.Hand

end
-- ==== Proof.TileRows.lean ====
/-
  The result at a sample depends on that sample's row of the input only.

  If row b of an M×3072 array X equals row b' of an M'×3072 array X', then the rectified convolution, the tile and both
  layouts of the specification agree at those rows, the weights, biases, tile and bias row being shared. This is what
  makes a block of rows of the result the result of the same block of rows of the input.
-/
import proofs.«165852_g2000309644460178_pallasbulk_134_2_alg».proof.Proof.TileSpec

noncomputable section

namespace Cert.TileSpec

open Idealize.ShloMosaic Idealize.ShloMosaic.ValueIdx

variable {M M' : Nat} (X : FVec Ideal ⟨2, ![M, 3072]⟩ .f32) (X' : FVec Ideal ⟨2, ![M', 3072]⟩ .f32)
  (wc : FVec Ideal ⟨2, ![8, 3]⟩ .f32) (bc : FVec Ideal ⟨2, ![8, 1]⟩ .f32) (W : FVec Ideal ⟨2, ![128, 128]⟩ .f32)
  (B : FVec Ideal ⟨2, ![1, 128]⟩ .f32)

theorem act_rows (b : Fin M) (b' : Fin M') (h : ∀ n : Fin 3072, X (ix2 b n) = X' (ix2 b' n)) (co : Fin 8) (p : Fin 1024) :
    act X wc bc b co p = act X' wc bc b' co p := by
  unfold act
  rw [h, h, h]

theorem tile_rows (b : Fin M) (b' : Fin M') (h : ∀ n : Fin 3072, X (ix2 b n) = X' (ix2 b' n)) (co : Fin 8) (l : Fin 1024) :
    tile X wc bc W B b co l = tile X' wc bc W B b' co l := by
  unfold tile
  simp only [act_rows X X' wc bc b b' h]

/-- The side-by-side layouts of X and X' agree at two indices with the same column whose rows of the input agree. -/
theorem outK_rows (j : (⟨2, ![M, 8192]⟩ : Shape).Idx) (j' : (⟨2, ![M', 8192]⟩ : Shape).Idx) (hcol : (j 1).val = (j' 1).val)
    (h : ∀ n : Fin 3072, X (ix2 (j 0) n) = X' (ix2 (j' 0) n)) : outK X wc bc W B j = outK X' wc bc W B j' := by
  unfold outK
  exact (tile_rows X X' wc bc W B (j 0) (j' 0) h _ _).trans
    (tile_congr X' wc bc W B rfl (by show (j 1).val / 1024 = (j' 1).val / 1024; rw [hcol])
      (by show (j 1).val % 1024 = (j' 1).val % 1024; rw [hcol]))

/-- The layouts by sample and channel of X and X' agree at two indices with the same column and the same channel
    whose samples' rows of the input agree. -/
theorem outR_rows (R R' : Nat) (hR : R = 8 * M) (hR' : R' = 8 * M') (j : (⟨2, ![R, 1024]⟩ : Shape).Idx)
    (j' : (⟨2, ![R', 1024]⟩ : Shape).Idx) (hcol : (j 1).val = (j' 1).val) (hch : (j 0).val % 8 = (j' 0).val % 8)
    (h : ∀ n : Fin 3072, X (ix2 ⟨(j 0).val / 8, by have := idx2_lt0 j; omega⟩ n)
        = X' (ix2 ⟨(j' 0).val / 8, by have := idx2_lt0 j'; omega⟩ n)) :
    outR X wc bc W B R hR j = outR X' wc bc W B R' hR' j' := by
  unfold outR
  exact (tile_rows X X' wc bc W B _ _ h _ _).trans (tile_congr X' wc bc W B rfl hch hcol)

/-- Both layouts depend on the weights, the biases, the tile and the bias row as functions only. -/
theorem outK_congr {wc' : FVec Ideal ⟨2, ![8, 3]⟩ .f32} {bc' : FVec Ideal ⟨2, ![8, 1]⟩ .f32}
    {W' : FVec Ideal ⟨2, ![128, 128]⟩ .f32} {B' : FVec Ideal ⟨2, ![1, 128]⟩ .f32}
    (h1 : wc = wc') (h2 : bc = bc') (h3 : W = W') (h4 : B = B') : outK X wc bc W B = outK X wc' bc' W' B' := by
  subst h1 h2 h3 h4; rfl

theorem outR_congr (R : Nat) (hR : R = 8 * M) {wc' : FVec Ideal ⟨2, ![8, 3]⟩ .f32} {bc' : FVec Ideal ⟨2, ![8, 1]⟩ .f32}
    {W' : FVec Ideal ⟨2, ![128, 128]⟩ .f32} {B' : FVec Ideal ⟨2, ![1, 128]⟩ .f32}
    (h1 : wc = wc') (h2 : bc = bc') (h3 : W = W') (h4 : B = B') :
    outR X wc bc W B R hR = outR X wc' bc' W' B' R hR := by
  subst h1 h2 h3 h4; rfl

end Cert.TileSpec

end
-- ==== Proof.KArray.lean ====
/-
  The kernel's 2048×8192 output array after all 32 grid points, as one function of the arrays the region finds.

  Point t stages rows 64·t … 64·t + 63 of the 2048×3072 input and the four small arrays whole, and writes back rows
  64·t … 64·t + 63 of the output. What the body leaves for those rows is the side-by-side layout `outK` of the staged
  blocks; since a row of `outK` depends on the same row of the input only, that is rows 64·t … 64·t + 63 of `outK` of the
  whole input. Row r of the output lies in the block of point r / 64, so the 32 blocks cover the array, and the array
  ends holding `outK` of the whole arrays.
-/
import proofs.«165852_g2000309644460178_pallasbulk_134_2_alg».proof.Proof.KBlock
import proofs.«165852_g2000309644460178_pallasbulk_134_2_alg».proof.Proof.TileRows
import Idealize.ShloMosaic.Lib.Pipeline.Value

set_option maxRecDepth 16384

noncomputable section

namespace Cert.KernelIdeal.Hand

open Cert.KernelIdeal Cert.KernelIdeal.Gen Cert.TileSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The five arrays as the region finds them: the recast input and the four arguments it stages whole. -/
abbrev Xin (c : Dev nD) : FVec Ideal S2048x3072 .f32 := V m c main_v1
abbrev Wc (c : Dev nD) : FVec Ideal S8x3 .f32 := V m c main_arg1
abbrev Bc (c : Dev nD) : FVec Ideal S8x1 .f32 := V m c main_arg2
abbrev Wt (c : Dev nD) : FVec Ideal S128x128 .f32 := V m c main_arg3
abbrev Bt (c : Dev nD) : FVec Ideal S1x128 .f32 := V m c main_arg4

/-- The whole output array as the specification's side-by-side layout of those arrays. -/
abbrev OutK (c : Dev nD) : FVec Ideal S2048x8192 .f32 := outK (Xin m c) (Wc m c) (Bc m c) (Wt m c) (Bt m c)

/-- The printed index maps, decided over the 32 points: the input and output windows move down one block of rows per
    point, and the four small windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem hN : cfg0.N = 32 := N_0

/-- The input block of point t at (p, n) is the input at row 64·t + p, column n. -/
theorem read_in (c : Dev nD) (t : Fin cfg0.N) (p : Fin 64) (n : Fin 3072) :
    (iblk m c 0 t : Vec Ideal S64x3072 .f32) (ix2 p n)
      = Xin m c (ix2 ⟨64 * t.val + p.val, by have := t.isLt; have := hN; omega⟩ n) := by
  obtain ⟨e0, e1, -⟩ := idx_facts t
  show V m c main_v1 (((cfg0.win 0).blk t).view.emb (ix2 p n)) = V m c main_v1 _
  refine congrArg (V m c main_v1) (funext fun a => Fin.ext ?_)
  match a with
  | ⟨0, _⟩ => show win0_0.index t (0 : Fin 2) * 64 + 1 * p.val = 64 * t.val + p.val; rw [e0]; omega
  | ⟨1, _⟩ => show win0_0.index t (1 : Fin 2) * 3072 + 1 * n.val = n.val; rw [e1]; omega

/-- Each small window's block, at every point, is its whole array. -/
theorem read_wc (c : Dev nD) (t : Fin cfg0.N) : (iblk m c 1 t : Vec Ideal S8x3 .f32) = Wc m c := by
  obtain ⟨-, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 8 + 1 * (j 0).val = (j 0).val; rw [e0]; omega
  | ⟨1, _⟩ => show win0_1.index t (1 : Fin 2) * 3 + 1 * (j 1).val = (j 1).val; rw [e1]; omega

theorem read_bc (c : Dev nD) (t : Fin cfg0.N) : (iblk m c 2 t : Vec Ideal S8x1 .f32) = Bc m c := by
  obtain ⟨-, -, -, -, e0, e1, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 8 + 1 * (j 0).val = (j 0).val; rw [e0]; omega
  | ⟨1, _⟩ => show win0_2.index t (1 : Fin 2) * 1 + 1 * (j 1).val = (j 1).val; rw [e1]; omega

theorem read_wt (c : Dev nD) (t : Fin cfg0.N) : (iblk m c 3 t : Vec Ideal S128x128 .f32) = Wt m c := by
  obtain ⟨-, -, -, -, -, -, e0, e1, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem read_bt (c : Dev nD) (t : Fin cfg0.N) : (iblk m c 4 t : Vec Ideal S1x128 .f32) = Bt m c := by
  obtain ⟨-, -, -, -, -, -, -, -, e0, e1, -⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- WHAT POINT t WRITES BACK is rows 64·t … 64·t + 63 of `OutK`: the body leaves `outK` of the staged blocks, the small
    blocks are the whole arrays, and local row p of the input block is row 64·t + p of the input, which is also the row
    the output block's local row p sits at. -/
theorem flushed_eq (c : Dev nD) (t : Fin cfg0.N) :
    (dats m 0 c).flushed 5 t = ((cfg0.win 5).blk t).view.read (Elt Ideal) (OutK m c) := by
  show (cfg0.win 5).cut (grid0.coords t) ((dats m 0 c).after 5 t) = _
  rw [after0_5 m c t, block_eq (iblk m c 0 t) (iblk m c 1 t) (iblk m c 2 t) (iblk m c 3 t) (iblk m c 4 t)]
  obtain ⟨-, -, -, -, -, -, -, -, -, -, e0, e1⟩ := idx_facts t
  funext j
  show outK (iblk m c 0 t : Vec Ideal S64x3072 .f32) (iblk m c 1 t : Vec Ideal S8x3 .f32) (iblk m c 2 t : Vec Ideal S8x1 .f32)
      (iblk m c 3 t : Vec Ideal S128x128 .f32) (iblk m c 4 t : Vec Ideal S1x128 .f32) j
    = OutK m c (((cfg0.win 5).blk t).view.emb j)
  refine (congrFun (outK_congr (iblk m c 0 t : Vec Ideal S64x3072 .f32) _ _ _ _
    (read_wc m c t) (read_bc m c t) (read_wt m c t) (read_bt m c t)) j).trans ?_
  refine outK_rows (iblk m c 0 t : Vec Ideal S64x3072 .f32) (Xin m c) (Wc m c) (Bc m c) (Wt m c) (Bt m c) j _ ?_ fun n => ?_
  · show (j 1).val = win0_5.index t (1 : Fin 2) * 8192 + 1 * (j 1).val
    rw [e1]; omega
  · refine (read_in m c t (j 0) n).trans (congrArg (Xin m c) (congrArg (fun r => ix2 r n) (Fin.ext ?_)))
    show 64 * t.val + (j 0).val = win0_5.index t (0 : Fin 2) * 64 + 1 * (j 0).val
    rw [e0]; omega

/-- An index of the output array is in point t's block iff each coordinate is in the block's range on its axis. -/
theorem mem_blk (t : Fin cfg0.N) (i : S2048x8192.Idx) :
    i ∈ ((cfg0.win 5).blk t).view.set ↔ ∀ a : Fin 2, win0_5.index t a * S64x8192.size a ≤ (i a).val
      ∧ (i a).val < win0_5.index t a * S64x8192.size a + S64x8192.size a := by
  show i ∈ ((View.whole main_v2).slice (win0_5.rect t)).set ↔ _
  rw [View.set_slice_whole, Rect.mem_set_unit]
  exact Iff.rfl

/-- THE OUTPUT ARRAY after the region is `OutK`: row r is covered by the block of point r / 64. -/
theorem final (c : Dev nD) : (dats m 0 c).arrAt 5 cfg0.N = OutK m c :=
  (dats m 0 c).arrAt_eq_of_cover 5 (OutK m c) (fun t _ => flushed_eq m c t) fun i => by
    have h0 : (i 0).val < 2048 := idx2_lt0 i
    have h1 : (i 1).val < 8192 := idx2_lt1 i
    have hn := hN
    refine ⟨⟨(i 0).val / 64, by omega⟩, flush0_5 _, ?_⟩
    rw [mem_blk]
    obtain ⟨-, -, -, -, -, -, -, -, -, -, e0, e1⟩ := idx_facts ⟨(i 0).val / 64, by omega⟩
    intro a
    match a with
    | ⟨0, _⟩ =>
      show win0_5.index _ (0 : Fin 2) * 64 ≤ (i 0).val ∧ (i 0).val < win0_5.index _ (0 : Fin 2) * 64 + 64
      rw [e0]; show (i 0).val / 64 * 64 ≤ (i 0).val ∧ (i 0).val < (i 0).val / 64 * 64 + 64; omega
    | ⟨1, _⟩ =>
      show win0_5.index _ (1 : Fin 2) * 8192 ≤ (i 1).val ∧ (i 1).val < win0_5.index _ (1 : Fin 2) * 8192 + 8192
      rw [e1]; omega

end Cert.KernelIdeal.Hand

end
-- ==== Proof.TileResult.lean ====
/-
  The final result as one function of the five arguments.

  The 2048×3×128×8 input is recast to 2048×3×1024 and then to 2048×3072 (each sample's three channels side by side, a
  channel's 128×8 positions in row-major order); the specification's `G3` of that array and of the weights, biases, tile
  and bias row is a 2048×8×1024 array, which is recast to 2048×8×128×8. Both programs end at this one term.
-/
import proofs.«165852_g2000309644460178_pallasbulk_134_2_alg».proof.Proof.TileSpec

noncomputable section

namespace Cert.TileSpec

open Idealize.ShloMosaic Idealize.ShloMosaic.ValueIdx

/-- The result array: recast the input twice, apply `G3`, recast to the output's shape. -/
def result (A0 : FVec Ideal ⟨4, ![2048, 3, 128, 8]⟩ .f32) (wc : FVec Ideal ⟨2, ![8, 3]⟩ .f32) (bc : FVec Ideal ⟨2, ![8, 1]⟩ .f32)
    (W : FVec Ideal ⟨2, ![128, 128]⟩ .f32) (B : FVec Ideal ⟨2, ![1, 128]⟩ .f32)
    (h1 : (⟨4, ![2048, 3, 128, 8]⟩ : Shape).ShapeCasts ⟨3, ![2048, 3, 1024]⟩)
    (h2 : (⟨3, ![2048, 3, 1024]⟩ : Shape).ShapeCasts ⟨2, ![2048, 3072]⟩)
    (h3 : (⟨3, ![2048, 8, 1024]⟩ : Shape).ShapeCasts ⟨4, ![2048, 8, 128, 8]⟩) : FVec Ideal ⟨4, ![2048, 8, 128, 8]⟩ .f32 :=
  shapeCast ⟨4, ![2048, 8, 128, 8]⟩
    (G3 (shapeCast ⟨2, ![2048, 3072]⟩ (shapeCast ⟨3, ![2048, 3, 1024]⟩ A0 h1) h2) wc bc W B) h3

end Cert.TileSpec

end
-- ==== Proof.KTail.lean ====
/-
  The kernel's run with its result named.

  Before the region the host recasts the 2048×3×128×8 argument to 2048×3×1024 and to 2048×3072: that is the input the
  region finds. After the region the host recasts the region's 2048×8192 output to 2048×8×1024 and to 2048×8×128×8. The
  region's output is the side-by-side layout of the specification, whose recast to 2048×8×1024 is `G3`; so the program's
  result is the specification's `result` of the five arguments, and the arguments end as they began.
-/
import proofs.«165852_g2000309644460178_pallasbulk_134_2_alg».proof.Proof.KArray
import proofs.«165852_g2000309644460178_pallasbulk_134_2_alg».proof.Proof.TileResult
import Idealize.ShloMosaic.Lib.StableHlo.Run
import Idealize.ShloMosaic.Lib.Tactic

set_option maxRecDepth 16384

noncomputable section

namespace Cert.KernelIdeal.Hand

open Cert.KernelIdeal Cert.KernelIdeal.Gen Cert.TileSpec
open Idealize.ShloMosaic Idealize.ShloMosaic.TcCoe Idealize.ShloMosaic.Tactic Idealize.ShloMosaic.ValueIdx Idealize.SL.Sem
open Idealize.ShloMosaic.Pipeline (Dat)

variable (m : (ℓ : Loc nD τ sig) → Buf (Elt Ideal) ℓ) (ρ : Dev nD → PrngReg)

/-- The five arguments as launched. -/
abbrev A0 (c : Dev nD) : FVec Ideal S2048x3x128x8 .f32 := m ((c : Thread nD τ).loc main_arg0)
abbrev A1 (c : Dev nD) : FVec Ideal S8x3 .f32 := m ((c : Thread nD τ).loc main_arg1)
abbrev A2 (c : Dev nD) : FVec Ideal S8x1 .f32 := m ((c : Thread nD τ).loc main_arg2)
abbrev A3 (c : Dev nD) : FVec Ideal S128x128 .f32 := m ((c : Thread nD τ).loc main_arg3)
abbrev A4 (c : Dev nD) : FVec Ideal S1x128 .f32 := m ((c : Thread nD τ).loc main_arg4)

/-- The input the region finds is the first argument recast twice. -/
theorem xin_eq (c : Dev nD) : Xin m c
    = shapeCast S2048x3072 (shapeCast S2048x3x1024 (A0 m c) shapeCasts_S2048x3x128x8_S2048x3x1024) shapeCasts_S2048x3x1024_S2048x3072 := by
  show StableHlo.after hostOps0 (fun b => m (c, b)) (Proc.devRef .tc main_v1) = _
  after_results
  rfl

/-- The program's result buffer after the host's two recasts of the region's output. -/
theorem tail_eq (c : Dev nD) : Pipeline.afterTail₀ cfgs (dats m) 0 (V0 m) [hostOps1] c main_v4
    = result (A0 m c) (A1 m c) (A2 m c) (A3 m c) (A4 m c) shapeCasts_S2048x3x128x8_S2048x3x1024
        shapeCasts_S2048x3x1024_S2048x3072 shapeCasts_S2048x8x1024_S2048x8x128x8 := by
  have e : Pipeline.withArrays (cfgs 0).spec c (V0 m c) (fun w => (dats m 0 c).arrAt w (cfgs 0).N) (Proc.devRef .tc main_v2)
      = OutK m c := (Pipeline.withArrays_arr spec0 launch0.win.arr_inj c _ _ 5).trans (final m c)
  have g : shapeCast S2048x8x1024 (OutK m c) shapeCasts_S2048x8192_S2048x8x1024 = G3 (Xin m c) (Wc m c) (Bc m c) (Wt m c) (Bt m c) :=
    cast_outK _ _ _ _ _ _
  unfold Pipeline.afterTail₀
  show StableHlo.after hostOps1 _ (Proc.devRef .tc main_v4) = _
  after_results
  show shapeCast S2048x8x128x8 (shapeCast S2048x8x1024
      (Pipeline.withArrays (cfgs 0).spec c (V0 m c) (fun w => (dats m 0 c).arrAt w (cfgs 0).N) (Proc.devRef .tc main_v2))
      shapeCasts_S2048x8192_S2048x8x1024) shapeCasts_S2048x8x1024_S2048x8x128x8 = _
  rw [e, g, xin_eq m c, show Wc m c = A1 m c from V_main_arg1 m c, show Bc m c = A2 m c from V_main_arg2 m c,
    show Wt m c = A3 m c from V_main_arg3 m c, show Bt m c = A4 m c from V_main_arg4 m c]
  rfl

/-- THE RUN, READ: the result buffer ends at the specification's `result` of the arguments, which end unchanged. -/
theorem run : θ_run defs (onTc (τ := τ) (main (F := Ideal))) ⟨m, fun _ => 0, ρ⟩ fun r => ∀ c : Dev nD,
      r.2.mem ((c : Thread nD τ).loc main_v4) = result (A0 m c) (A1 m c) (A2 m c) (A3 m c) (A4 m c)
          shapeCasts_S2048x3x128x8_S2048x3x1024 shapeCasts_S2048x3x1024_S2048x3072 shapeCasts_S2048x8x1024_S2048x8x128x8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.RefBlock.lean ====
/-
  What the reference kernel's body leaves in its output block, at the ideal values, is the specification's layout.

  The body reads five blocks: a 32×3072 input X (row b holds the three input channels of sample b, 1024 positions each),
  an 8×3 weight wc, an 8×1 bias bc, a 128×128 tile W and a 1×128 row B. It first forms the 256×1024 activation

      A(8·b + co, n) = max(((X(b, n)·wc(co,0) + X(b, 1024+n)·wc(co,1)) + X(b, 2048+n)·wc(co,2)) + bc(co,0), 0):

  each channel is a slice of 1024 columns, seen as 32×1×1024 and repeated over the eight output channels; each weight
  column and the bias are seen as 1×8×1 and repeated over samples and positions; the products are added in that order,
  rectified, and the 32×8×1024 result is recast to 256×1024, which sends (b, co, n) to row 8·b + co (`act_apply`).

  It then stores eight pieces. Piece k (k = 0..7) covers columns 128·k .. 128·k + 127 of the 256×1024 output and holds
  the chunk of A at those columns times W into the zero accumulator, plus B repeated down the rows; at (p, q) that is

      (∑ c < 128, A(p, 128·k + c) · W(c, q)) + B(0, q),

  which is the specification's `tile` at sample p / 8, channel p % 8 and position 128·k + q: that position lies in chunk k
  at column q, and the chunk starts at 128·k (`chunk_tile`, `piece_eq`). The eight rectangles cover the buffer, so the
  buffer holds the one function `outR` everywhere (`block_eq`).
-/
import proofs.«165852_g2000309644460178_pallasbulk_134_2_alg».proof.Proof.Gen.ReferenceIdeal.Frame
import proofs.«165852_g2000309644460178_pallasbulk_134_2_alg».proof.Proof.TileSpec
import proofs.«165852_g2000309644460178_pallasbulk_134_2_alg».proof.Proof.LibTileChunk
import Idealize.ShloMosaic.Lib.Pipeline.Value
import Idealize.ShloMosaic.Lib.ValueIdx

noncomputable section

namespace Cert.ReferenceIdeal.Hand

open Idealize.ShloMosaic Idealize.ShloMosaic.ValueIdx
open Cert.ReferenceIdeal Cert.ReferenceIdeal.Gen

/-- The generated dimension numbers of the eight products are the plain ones of a 256×128 by 128×128 product. -/
theorem dot_eq_plain : dot_S256x128_S128x128_S256x128_1_0_0_1_n_n = DotDims.plain 256 128 128 := rfl

/-- One input channel, repeated over the eight output channels, at (b, co, p): column `off + p` of row b. -/
theorem chan_apply (x0 : FVec Ideal ⟨2, ![32, 3072]⟩ .f32) (off : Nat) (hoff : off + 1024 ≤ 3072)
    (hc0 : (⟨2, ![32, 3072]⟩ : Shape).ShapeCasts ⟨2, ![32, 3072]⟩)
    (hs : (⟨2, ![32, 3072]⟩ : Shape).Slices ![0, off] ⟨2, ![32, 1024]⟩)
    (hc : (⟨2, ![32, 1024]⟩ : Shape).ShapeCasts ⟨3, ![32, 1, 1024]⟩)
    (hb : (⟨3, ![32, 1, 1024]⟩ : Shape).Broadcasts ⟨3, ![32, 8, 1024]⟩)
    (b : Fin 32) (co : Fin 8) (p : Fin 1024) :
    broadcastTo ⟨3, ![32, 8, 1024]⟩ (shapeCast ⟨3, ![32, 1, 1024]⟩
        (extractStridedSlice ⟨2, ![32, 1024]⟩ ![0, off] (shapeCast ⟨2, ![32, 3072]⟩ x0 hc0) hs) hc) hb (ix3 b co p)
      = x0 (ix2 b (Cert.TileSpec.chanCol off hoff p)) := by
  refine (broadcastTo_apply _ hb (ix3 b co p) (ix3 b (0 : Fin 1) p) fun a => ?_).trans ?_
  · match a with
    | ⟨0, _⟩ => rfl
    | ⟨1, _⟩ => rfl
    | ⟨2, _⟩ => rfl
  · refine (shapeCast_apply _ hc (ix3 b (0 : Fin 1) p) (ix2 b p) ?_).trans ?_
    · rw [Shape.rowMajor_val_two, Shape.rowMajor_val_three]
      show b.val * 1024 + p.val = (b.val * 1 + 0) * 1024 + p.val
      omega
    · refine (extractStridedSlice_apply _ _ hs (ix2 b p) (ix2 b (Cert.TileSpec.chanCol off hoff p)) fun a => ?_).trans ?_
      · match a with
        | ⟨0, _⟩ => show b.val = 0 + b.val; omega
        | ⟨1, _⟩ => rfl
      · rw [shapeCast_self]

/-- One column of the 8×3 weight, repeated over samples and positions, at (b, co, p): entry (co, k). -/
theorem wcol_apply (x1 : FVec Ideal ⟨2, ![8, 3]⟩ .f32) (k : Nat) (hk : k < 3)
    (hs : (⟨2, ![8, 3]⟩ : Shape).Slices ![0, k] ⟨2, ![8, 1]⟩)
    (hc : (⟨2, ![8, 1]⟩ : Shape).ShapeCasts ⟨3, ![1, 8, 1]⟩)
    (hb : (⟨3, ![1, 8, 1]⟩ : Shape).Broadcasts ⟨3, ![32, 8, 1024]⟩)
    (b : Fin 32) (co : Fin 8) (p : Fin 1024) :
    broadcastTo ⟨3, ![32, 8, 1024]⟩ (shapeCast ⟨3, ![1, 8, 1]⟩ (extractStridedSlice ⟨2, ![8, 1]⟩ ![0, k] x1 hs) hc) hb (ix3 b co p)
      = x1 (ix2 co (⟨k, hk⟩ : Fin 3)) := by
  refine (broadcastTo_apply _ hb (ix3 b co p) (ix3 (0 : Fin 1) co (0 : Fin 1)) fun a => ?_).trans ?_
  · match a with
    | ⟨0, _⟩ => rfl
    | ⟨1, _⟩ => rfl
    | ⟨2, _⟩ => rfl
  · refine (shapeCast_apply _ hc (ix3 (0 : Fin 1) co (0 : Fin 1)) (ix2 co (0 : Fin 1)) ?_).trans ?_
    · rw [Shape.rowMajor_val_two, Shape.rowMajor_val_three]
      show co.val * 1 + 0 = (0 * 8 + co.val) * 1 + 0
      omega
    · refine extractStridedSlice_apply _ _ hs (ix2 co (0 : Fin 1)) (ix2 co (⟨k, hk⟩ : Fin 3)) fun a => ?_
      match a with
      | ⟨0, _⟩ => show co.val = 0 + co.val; omega
      | ⟨1, _⟩ => rfl

/-- The 8×1 bias, repeated over samples and positions, at (b, co, p): entry (co, 0). -/
theorem bias_apply (x2 : FVec Ideal ⟨2, ![8, 1]⟩ .f32)
    (hc : (⟨2, ![8, 1]⟩ : Shape).ShapeCasts ⟨3, ![1, 8, 1]⟩)
    (hb : (⟨3, ![1, 8, 1]⟩ : Shape).Broadcasts ⟨3, ![32, 8, 1024]⟩)
    (b : Fin 32) (co : Fin 8) (p : Fin 1024) :
    broadcastTo ⟨3, ![32, 8, 1024]⟩ (shapeCast ⟨3, ![1, 8, 1]⟩ x2 hc) hb (ix3 b co p) = x2 (ix2 co (0 : Fin 1)) := by
  refine (broadcastTo_apply _ hb (ix3 b co p) (ix3 (0 : Fin 1) co (0 : Fin 1)) fun a => ?_).trans ?_
  · match a with
    | ⟨0, _⟩ => rfl
    | ⟨1, _⟩ => rfl
    | ⟨2, _⟩ => rfl
  · refine shapeCast_apply _ hc (ix3 (0 : Fin 1) co (0 : Fin 1)) (ix2 co (0 : Fin 1)) ?_
    rw [Shape.rowMajor_val_two, Shape.rowMajor_val_three]
    show co.val * 1 + 0 = (0 * 8 + co.val) * 1 + 0
    omega

/-- The activation the reference computes, at row r = 8·b + co and position n: the rectified convolution of sample
    r / 8 at output channel r % 8. The outer recast sends (b, co, n) of the 32×8×1024 array to row 8·b + co. -/
theorem act_apply (x0 : FVec Ideal ⟨2, ![32, 3072]⟩ .f32) (x1 : FVec Ideal ⟨2, ![8, 3]⟩ .f32)
    (x2 : FVec Ideal ⟨2, ![8, 1]⟩ .f32) (r : Fin 256) (n : Fin 1024) :
    k0_pay1 (F := Ideal) x0 x1 x2 (ix2 r n)
      = Cert.TileSpec.act x0 x1 x2 (⟨r.val / 8, by have := r.isLt; omega⟩ : Fin 32)
          (⟨r.val % 8, Nat.mod_lt _ (by omega)⟩ : Fin 8) n := by
  unfold k0_pay1
  refine (shapeCast_apply _ shapeCasts_S32x8x1024_S256x1024 (ix2 r n)
    (ix3 (⟨r.val / 8, by have := r.isLt; omega⟩ : Fin 32) (⟨r.val % 8, Nat.mod_lt _ (by omega)⟩ : Fin 8) n) ?_).trans ?_
  · rw [Shape.rowMajor_val_two, Shape.rowMajor_val_three]
    show (r.val / 8 * 8 + r.val % 8) * 1024 + n.val = r.val * 1024 + n.val
    omega
  · unfold Cert.TileSpec.act
    simp only [maximumf_apply, addf_apply, mulf_apply, broadcast_apply]
    rw [chan_apply x0 0 (by omega), chan_apply x0 1024 (by omega), chan_apply x0 2048 (by omega),
      wcol_apply x1 0 (by omega), wcol_apply x1 1 (by omega), wcol_apply x1 2 (by omega), bias_apply x2]
    rfl

/-- The chunk of 128 columns at `off = 128·k` of the activation, times the tile, plus the bias row, at (p, q), is the
    spec's value at row p and column off + q: position off + q lies in chunk k at column q, and the chunk's first
    position is off. -/
theorem chunk_tile (x0 : FVec Ideal ⟨2, ![32, 3072]⟩ .f32) (x1 : FVec Ideal ⟨2, ![8, 3]⟩ .f32)
    (x2 : FVec Ideal ⟨2, ![8, 1]⟩ .f32) (x3 : FVec Ideal ⟨2, ![128, 128]⟩ .f32) (x4 : FVec Ideal ⟨2, ![1, 128]⟩ .f32)
    (off k : Nat) (hk : off = 128 * k) (hoff : off + 128 ≤ 1024)
    (hsl : (⟨2, ![256, 1024]⟩ : Shape).Slices ![0, off] ⟨2, ![256, 128]⟩)
    (hb : (⟨2, ![1, 128]⟩ : Shape).Broadcasts ⟨2, ![256, 128]⟩) (p : Fin 256) (q : Fin 128) :
    addf (matmul dot_S256x128_S128x128_S256x128_1_0_0_1_n_n (some .fp32)
        (extractStridedSlice ⟨2, ![256, 128]⟩ ![0, off] (k0_pay1 (F := Ideal) x0 x1 x2) hsl) x3
        (constant (F := Ideal) ⟨2, ![256, 128]⟩ .f32 0x00000000#32)) (broadcastTo ⟨2, ![256, 128]⟩ x4 hb) (ix2 p q)
      = Cert.TileSpec.outR x0 x1 x2 x3 x4 256 (by norm_num)
          (ix2 p (⟨off + q.val, by have := q.isLt; omega⟩ : Fin 1024)) := by
  have hq : (off + q.val) % 128 = q.val := by have := q.isLt; omega
  rw [dot_eq_plain]
  refine (Cert.LibTileChunk.chunk_apply (some .fp32) (k0_pay1 (F := Ideal) x0 x1 x2) x3 x4 off hoff hsl hb p q).trans ?_
  show _ = Cert.TileSpec.tile x0 x1 x2 x3 x4 (⟨p.val / 8, by have := p.isLt; omega⟩ : Fin 32)
      (⟨p.val % 8, Nat.mod_lt _ (by omega)⟩ : Fin 8) (⟨off + q.val, by have := q.isLt; omega⟩ : Fin 1024)
  unfold Cert.TileSpec.tile
  congr 1
  · refine Finset.sum_congr rfl fun c _ => ?_
    congr 1
    · refine (act_apply x0 x1 x2 p _).trans ?_
      refine congrArg (Cert.TileSpec.act x0 x1 x2 _ _) (Fin.ext ?_)
      show off + c.val = (off + q.val) / 128 * 128 + c.val
      have := q.isLt; omega
    · exact congrArg x3 (congrArg (ix2 c) (Fin.ext hq.symm))
  · exact congrArg x4 (congrArg (ix2 (0 : Fin 1)) (Fin.ext hq.symm))

/-- A local index (p, q) of the 256×128 rectangle at column offset `off` of the 256×1024 buffer sits at (p, off + q). -/
theorem emb_col (off : Nat) (hoff : off + 128 ≤ 1024)
    (inb : ∀ a, (![0, off] : Fin 2 → Nat) a + S256x128.size a ≤ S256x1024.size a) (p : Fin 256) (q : Fin 128) :
    (Rect.unit (s := S256x1024) ![0, off] S256x128.size inb).emb (ix2 p q)
      = ix2 p (⟨off + q.val, by have := q.isLt; omega⟩ : Fin 1024) := by
  funext a
  match a with
  | ⟨0, _⟩ => exact Fin.ext (by show 0 + 1 * p.val = p.val; omega)
  | ⟨1, _⟩ => exact Fin.ext (by show off + 1 * q.val = off + q.val; omega)

/-- A piece whose payload is the chunk at `off = 128·k` agrees with the spec on its rectangle. -/
theorem piece_eq (x0 : FVec Ideal ⟨2, ![32, 3072]⟩ .f32) (x1 : FVec Ideal ⟨2, ![8, 3]⟩ .f32)
    (x2 : FVec Ideal ⟨2, ![8, 1]⟩ .f32) (x3 : FVec Ideal ⟨2, ![128, 128]⟩ .f32) (x4 : FVec Ideal ⟨2, ![1, 128]⟩ .f32)
    (off k : Nat) (hk : off = 128 * k) (hoff : off + 128 ≤ 1024)
    (hsl : (⟨2, ![256, 1024]⟩ : Shape).Slices ![0, off] ⟨2, ![256, 128]⟩)
    (hb : (⟨2, ![1, 128]⟩ : Shape).Broadcasts ⟨2, ![256, 128]⟩)
    (inb : ∀ a, (![0, off] : Fin 2 → Nat) a + S256x128.size a ≤ S256x1024.size a)
    (x : (⟨2, ![256, 128]⟩ : Shape).Idx) :
    addf (matmul dot_S256x128_S128x128_S256x128_1_0_0_1_n_n (some .fp32)
        (extractStridedSlice ⟨2, ![256, 128]⟩ ![0, off] (k0_pay1 (F := Ideal) x0 x1 x2) hsl) x3
        (constant (F := Ideal) ⟨2, ![256, 128]⟩ .f32 0x00000000#32)) (broadcastTo ⟨2, ![256, 128]⟩ x4 hb) x
      = Cert.TileSpec.outR x0 x1 x2 x3 x4 256 (by norm_num)
          ((Rect.unit (s := S256x1024) ![0, off] S256x128.size inb).emb x) := by
  obtain ⟨p, q, rfl⟩ : ∃ p q, x = ix2 p q := ⟨x 0, x 1, eq_ix2 x⟩
  rw [emb_col off hoff inb p q]
  exact chunk_tile x0 x1 x2 x3 x4 off k hk hoff hsl hb p q

/-- What the reference's body leaves in its 256×1024 output buffer is the spec's layout by sample and channel of the
    spec's tile function of the same five blocks: each of the eight stores writes, on its 128 columns, the chunk product
    the spec names there, and the eight rectangles cover the buffer. -/
theorem block_eq (x0 : Vec Ideal S32x3072 .f32) (x1 : Vec Ideal S8x3 .f32) (x2 : Vec Ideal S8x1 .f32)
    (x3 : Vec Ideal S128x128 .f32) (x4 : Vec Ideal S1x128 .f32) :
    Cert.ReferenceIdeal.Gen.out0_5 (F := Ideal) x0 x1 x2 x3 x4
      = Cert.TileSpec.outR x0 x1 x2 x3 x4 256 (by norm_num) := by
  have hz : (![0, 0] : Fin 2 → Nat) = fun _ => 0 := by
    funext a
    match a with
    | ⟨0, _⟩ => rfl
    | ⟨1, _⟩ => rfl
  have e0 : View.ld x0 r0_0 = x0 := View.ld_unit_zero (S := S32x3072) hz _ x0
  have e1 : View.ld x1 r0_1 = x1 := View.ld_unit_zero (S := S8x3) hz _ x1
  have e2 : View.ld x2 r0_2 = x2 := View.ld_unit_zero (S := S8x1) hz _ x2
  have e3 : View.ld x3 r0_3 = x3 := View.ld_unit_zero (S := S128x128) hz _ x3
  have e4 : View.ld x4 r0_4 = x4 := View.ld_unit_zero (S := S1x128) hz _ x4
  funext y
  unfold out0_5
  rw [e0, e1, e2, e3, e4]
  refine View.canon_apply_of_pieces (Val := Elt Ideal) (S := S256x1024) (e := EltTy.f32)
    (Cert.TileSpec.outR x0 x1 x2 x3 x4 256 (by norm_num)) _ ?_ y
    (cover0_5 _ _ _ _ _ _ _ _ y)
  intro pc hpc x
  rcases List.mem_cons.mp hpc with rfl | hpc
  · exact piece_eq x0 x1 x2 x3 x4 896 7 rfl (by omega) slices_S256x1024_o0_896_S256x128
      broadcasts_S1x128_S256x128 inb_S256x1024_S256x128_0_896 x
  rcases List.mem_cons.mp hpc with rfl | hpc
  · exact piece_eq x0 x1 x2 x3 x4 768 6 rfl (by omega) slices_S256x1024_o0_768_S256x128
      broadcasts_S1x128_S256x128 inb_S256x1024_S256x128_0_768 x
  rcases List.mem_cons.mp hpc with rfl | hpc
  · exact piece_eq x0 x1 x2 x3 x4 640 5 rfl (by omega) slices_S256x1024_o0_640_S256x128
      broadcasts_S1x128_S256x128 inb_S256x1024_S256x128_0_640 x
  rcases List.mem_cons.mp hpc with rfl | hpc
  · exact piece_eq x0 x1 x2 x3 x4 512 4 rfl (by omega) slices_S256x1024_o0_512_S256x128
      broadcasts_S1x128_S256x128 inb_S256x1024_S256x128_0_512 x
  rcases List.mem_cons.mp hpc with rfl | hpc
  · exact piece_eq x0 x1 x2 x3 x4 384 3 rfl (by omega) slices_S256x1024_o0_384_S256x128
      broadcasts_S1x128_S256x128 inb_S256x1024_S256x128_0_384 x
  rcases List.mem_cons.mp hpc with rfl | hpc
  · exact piece_eq x0 x1 x2 x3 x4 256 2 rfl (by omega) slices_S256x1024_o0_256_S256x128
      broadcasts_S1x128_S256x128 inb_S256x1024_S256x128_0_256 x
  rcases List.mem_cons.mp hpc with rfl | hpc
  · exact piece_eq x0 x1 x2 x3 x4 128 1 rfl (by omega) slices_S256x1024_o0_128_S256x128
      broadcasts_S1x128_S256x128 inb_S256x1024_S256x128_0_128 x
  rcases List.mem_cons.mp hpc with rfl | hpc
  · exact piece_eq x0 x1 x2 x3 x4 0 0 rfl (by omega) slices_S256x1024_o0_0_S256x128
      broadcasts_S1x128_S256x128 inb_S256x1024_S256x128_0_0 x
  · exact absurd hpc List.not_mem_nil

end Cert.ReferenceIdeal.Hand

end
-- ==== Proof.RefArray.lean ====
/-
  The reference's 16384×1024 output array after all 64 grid points, as one function of the arrays the region finds.

  Point t stages rows 32·t … 32·t + 31 of the 2048×3072 input and the four small arrays whole, and writes back rows
  256·t … 256·t + 255 of the output. What the body leaves for those rows is the layout by sample and channel `outR` of
  the staged blocks: local row r holds local sample r / 8 at channel r % 8. In the whole array, row 256·t + r holds
  sample (256·t + r) / 8 = 32·t + r / 8 at channel (256·t + r) % 8 = r % 8, because 256·t is a multiple of 8; and local
  sample r / 8 of the staged block is row 32·t + r / 8 of the input. A sample's values depend on its own row of the input
  only, so the block written back is rows 256·t … 256·t + 255 of `outR` of the whole input. Row r of the output lies in
  the block of point r / 256, so the 64 blocks cover the array, and the array ends holding `outR` of the whole arrays.
-/
import proofs.«165852_g2000309644460178_pallasbulk_134_2_alg».proof.Proof.RefBlock
import proofs.«165852_g2000309644460178_pallasbulk_134_2_alg».proof.Proof.TileRows
import Idealize.ShloMosaic.Lib.Pipeline.Value

set_option maxRecDepth 16384

noncomputable section

namespace Cert.ReferenceIdeal.Hand

open Cert.ReferenceIdeal Cert.ReferenceIdeal.Gen Cert.TileSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The five arrays as the region finds them: the recast input and the four arguments it stages whole. -/
abbrev Xin (c : Dev nD) : FVec Ideal S2048x3072 .f32 := V m c main_v1
abbrev Wc (c : Dev nD) : FVec Ideal S8x3 .f32 := V m c main_arg1
abbrev Bc (c : Dev nD) : FVec Ideal S8x1 .f32 := V m c main_arg2
abbrev Wt (c : Dev nD) : FVec Ideal S128x128 .f32 := V m c main_arg3
abbrev Bt (c : Dev nD) : FVec Ideal S1x128 .f32 := V m c main_arg4

/-- The whole output array as the specification's layout by sample and channel of those arrays: 16384 = 8 · 2048 rows. -/
abbrev OutR (c : Dev nD) : FVec Ideal S16384x1024 .f32 :=
  outR (Xin m c) (Wc m c) (Bc m c) (Wt m c) (Bt m c) 16384 (by norm_num)

/-- The printed index maps, decided over the 64 points: the input and output windows move down one block of rows per
    point, and the four small windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem hN : cfg0.N = 64 := N_0

/-- The input block of point t at (p, n) is the input at row 32·t + p, column n. -/
theorem read_in (c : Dev nD) (t : Fin cfg0.N) (p : Fin 32) (n : Fin 3072) :
    (iblk m c 0 t : Vec Ideal S32x3072 .f32) (ix2 p n)
      = Xin m c (ix2 ⟨32 * t.val + p.val, by have := t.isLt; have := hN; omega⟩ n) := by
  obtain ⟨e0, e1, -⟩ := idx_facts t
  show V m c main_v1 (((cfg0.win 0).blk t).view.emb (ix2 p n)) = V m c main_v1 _
  refine congrArg (V m c main_v1) (funext fun a => Fin.ext ?_)
  match a with
  | ⟨0, _⟩ => show win0_0.index t (0 : Fin 2) * 32 + 1 * p.val = 32 * t.val + p.val; rw [e0]; omega
  | ⟨1, _⟩ => show win0_0.index t (1 : Fin 2) * 3072 + 1 * n.val = n.val; rw [e1]; omega

/-- Each small window's block, at every point, is its whole array. -/
theorem read_wc (c : Dev nD) (t : Fin cfg0.N) : (iblk m c 1 t : Vec Ideal S8x3 .f32) = Wc m c := by
  obtain ⟨-, -, e0, e1, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 2) * 8 + 1 * (j 0).val = (j 0).val; rw [e0]; omega
  | ⟨1, _⟩ => show win0_1.index t (1 : Fin 2) * 3 + 1 * (j 1).val = (j 1).val; rw [e1]; omega

theorem read_bc (c : Dev nD) (t : Fin cfg0.N) : (iblk m c 2 t : Vec Ideal S8x1 .f32) = Bc m c := by
  obtain ⟨-, -, -, -, e0, e1, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 2) * 8 + 1 * (j 0).val = (j 0).val; rw [e0]; omega
  | ⟨1, _⟩ => show win0_2.index t (1 : Fin 2) * 1 + 1 * (j 1).val = (j 1).val; rw [e1]; omega

theorem read_wt (c : Dev nD) (t : Fin cfg0.N) : (iblk m c 3 t : Vec Ideal S128x128 .f32) = Wt m c := by
  obtain ⟨-, -, -, -, -, -, e0, e1, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

theorem read_bt (c : Dev nD) (t : Fin cfg0.N) : (iblk m c 4 t : Vec Ideal S1x128 .f32) = Bt m c := by
  obtain ⟨-, -, -, -, -, -, -, -, e0, e1, -⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- WHAT POINT t WRITES BACK is rows 256·t … 256·t + 255 of `OutR`: the body leaves `outR` of the staged blocks, the small
    blocks are the whole arrays, and local row r of the output block sits at row 256·t + r, which has the same column, the
    same channel r % 8, and the sample 32·t + r / 8 whose input row is local row r / 8 of the staged input block. -/
theorem flushed_eq (c : Dev nD) (t : Fin cfg0.N) :
    (dats m 0 c).flushed 5 t = ((cfg0.win 5).blk t).view.read (Elt Ideal) (OutR m c) := by
  show (cfg0.win 5).cut (grid0.coords t) ((dats m 0 c).after 5 t) = _
  rw [after0_5 m c t, block_eq (iblk m c 0 t) (iblk m c 1 t) (iblk m c 2 t) (iblk m c 3 t) (iblk m c 4 t)]
  obtain ⟨-, -, -, -, -, -, -, -, -, -, e0, e1⟩ := idx_facts t
  funext j
  have hj0 : (j 0).val < 256 := (j 0).isLt
  show outR (iblk m c 0 t : Vec Ideal S32x3072 .f32) (iblk m c 1 t : Vec Ideal S8x3 .f32) (iblk m c 2 t : Vec Ideal S8x1 .f32)
      (iblk m c 3 t : Vec Ideal S128x128 .f32) (iblk m c 4 t : Vec Ideal S1x128 .f32) 256 (by norm_num) j
    = OutR m c (((cfg0.win 5).blk t).view.emb j)
  refine (congrFun (outR_congr (iblk m c 0 t : Vec Ideal S32x3072 .f32) _ _ _ _ 256 (by norm_num)
    (read_wc m c t) (read_bc m c t) (read_wt m c t) (read_bt m c t)) j).trans ?_
  refine outR_rows (iblk m c 0 t : Vec Ideal S32x3072 .f32) (Xin m c) (Wc m c) (Bc m c) (Wt m c) (Bt m c) 256 16384
    (by norm_num) (by norm_num) j _ ?_ ?_ fun n => ?_
  · show (j 1).val = win0_5.index t (1 : Fin 2) * 1024 + 1 * (j 1).val
    rw [e1]; omega
  · show (j 0).val % 8 = (win0_5.index t (0 : Fin 2) * 256 + 1 * (j 0).val) % 8
    rw [e0]; omega
  · refine (read_in m c t ⟨(j 0).val / 8, by omega⟩ n).trans
      (congrArg (Xin m c) (congrArg (fun r => ix2 r n) (Fin.ext ?_)))
    show 32 * t.val + (j 0).val / 8 = (win0_5.index t (0 : Fin 2) * 256 + 1 * (j 0).val) / 8
    rw [e0]; omega

/-- An index of the output array is in point t's block iff each coordinate is in the block's range on its axis. -/
theorem mem_blk (t : Fin cfg0.N) (i : S16384x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v2).slice (win0_5.rect t)).set ↔ _
  rw [View.set_slice_whole, Rect.mem_set_unit]
  exact Iff.rfl

/-- THE OUTPUT ARRAY after the region is `OutR`: row r is covered by the block of point r / 256. -/
theorem final (c : Dev nD) : (dats m 0 c).arrAt 5 cfg0.N = OutR m c :=
  (dats m 0 c).arrAt_eq_of_cover 5 (OutR m c) (fun t _ => flushed_eq m c t) fun i => by
    have h0 : (i 0).val < 16384 := idx2_lt0 i
    have h1 : (i 1).val < 1024 := idx2_lt1 i
    have hn := hN
    refine ⟨⟨(i 0).val / 256, by omega⟩, flush0_5 _, ?_⟩
    rw [mem_blk]
    obtain ⟨-, -, -, -, -, -, -, -, -, -, e0, e1⟩ := idx_facts ⟨(i 0).val / 256, by omega⟩
    intro a
    match a with
    | ⟨0, _⟩ =>
      show win0_5.index _ (0 : Fin 2) * 256 ≤ (i 0).val ∧ (i 0).val < win0_5.index _ (0 : Fin 2) * 256 + 256
      rw [e0]; show (i 0).val / 256 * 256 ≤ (i 0).val ∧ (i 0).val < (i 0).val / 256 * 256 + 256; omega
    | ⟨1, _⟩ =>
      show win0_5.index _ (1 : Fin 2) * 1024 ≤ (i 1).val ∧ (i 1).val < win0_5.index _ (1 : Fin 2) * 1024 + 1024
      rw [e1]; omega

end Cert.ReferenceIdeal.Hand

end
-- ==== Proof.RefTail.lean ====
/-
  The reference's run with its result named.

  The reference recasts its 2048×3×128×8 argument to 2048×3×1024 and to 2048×3072 before its region, exactly as the kernel
  does, and recasts the region's 16384×1024 output (one row per sample and channel) to 2048×8×1024 and to 2048×8×128×8
  after it. The region's output is the specification's layout by sample and channel, whose recast to 2048×8×1024 is `G3`;
  so the reference's result is the specification's `result` of the five arguments, and the arguments end as they began.
-/
import proofs.«165852_g2000309644460178_pallasbulk_134_2_alg».proof.Proof.RefArray
import proofs.«165852_g2000309644460178_pallasbulk_134_2_alg».proof.Proof.TileResult
import Idealize.ShloMosaic.Lib.StableHlo.Run
import Idealize.ShloMosaic.Lib.Tactic

set_option maxRecDepth 16384

noncomputable section

namespace Cert.ReferenceIdeal.Hand

open Cert.ReferenceIdeal Cert.ReferenceIdeal.Gen Cert.TileSpec
open Idealize.ShloMosaic Idealize.ShloMosaic.TcCoe Idealize.ShloMosaic.Tactic Idealize.ShloMosaic.ValueIdx Idealize.SL.Sem
open Idealize.ShloMosaic.Pipeline (Dat)

variable (m : (ℓ : Loc nD τ sig) → Buf (Elt Ideal) ℓ) (ρ : Dev nD → PrngReg)

/-- The five arguments as launched. -/
abbrev A0 (c : Dev nD) : FVec Ideal S2048x3x128x8 .f32 := m ((c : Thread nD τ).loc main_arg0)
abbrev A1 (c : Dev nD) : FVec Ideal S8x3 .f32 := m ((c : Thread nD τ).loc main_arg1)
abbrev A2 (c : Dev nD) : FVec Ideal S8x1 .f32 := m ((c : Thread nD τ).loc main_arg2)
abbrev A3 (c : Dev nD) : FVec Ideal S128x128 .f32 := m ((c : Thread nD τ).loc main_arg3)
abbrev A4 (c : Dev nD) : FVec Ideal S1x128 .f32 := m ((c : Thread nD τ).loc main_arg4)

/-- The input the region finds is the first argument recast twice. -/
theorem xin_eq (c : Dev nD) : Xin m c
    = shapeCast S2048x3072 (shapeCast S2048x3x1024 (A0 m c) shapeCasts_S2048x3x128x8_S2048x3x1024) shapeCasts_S2048x3x1024_S2048x3072 := by
  show StableHlo.after hostOps0 (fun b => m (c, b)) (Proc.devRef .tc main_v1) = _
  after_results
  rfl

/-- The reference's result buffer after the host's two recasts of the region's output. -/
theorem tail_eq (c : Dev nD) : Pipeline.afterTail₀ cfgs (dats m) 0 (V0 m) [hostOps1] c main_v4
    = result (A0 m c) (A1 m c) (A2 m c) (A3 m c) (A4 m c) shapeCasts_S2048x3x128x8_S2048x3x1024
        shapeCasts_S2048x3x1024_S2048x3072 shapeCasts_S2048x8x1024_S2048x8x128x8 := by
  have e : Pipeline.withArrays (cfgs 0).spec c (V0 m c) (fun w => (dats m 0 c).arrAt w (cfgs 0).N) (Proc.devRef .tc main_v2)
      = OutR m c := (Pipeline.withArrays_arr spec0 launch0.win.arr_inj c _ _ 5).trans (final m c)
  have g : shapeCast S2048x8x1024 (OutR m c) shapeCasts_S16384x1024_S2048x8x1024 = G3 (Xin m c) (Wc m c) (Bc m c) (Wt m c) (Bt m c) :=
    cast_outR _ _ _ _ _ 16384 (by norm_num) _
  unfold Pipeline.afterTail₀
  show StableHlo.after hostOps1 _ (Proc.devRef .tc main_v4) = _
  after_results
  show shapeCast S2048x8x128x8 (shapeCast S2048x8x1024
      (Pipeline.withArrays (cfgs 0).spec c (V0 m c) (fun w => (dats m 0 c).arrAt w (cfgs 0).N) (Proc.devRef .tc main_v2))
      shapeCasts_S16384x1024_S2048x8x1024) shapeCasts_S2048x8x1024_S2048x8x128x8 = _
  rw [e, g, xin_eq m c, show Wc m c = A1 m c from V_main_arg1 m c, show Bc m c = A2 m c from V_main_arg2 m c,
    show Wt m c = A3 m c from V_main_arg3 m c, show Bt m c = A4 m c from V_main_arg4 m c]
  rfl

/-- THE RUN, READ: the result buffer ends at the specification's `result` of the arguments, which end unchanged. -/
theorem run : θ_run defs (onTc (τ := τ) (main (F := Ideal))) ⟨m, fun _ => 0, ρ⟩ fun r => ∀ c : Dev nD,
      r.2.mem ((c : Thread nD τ).loc main_v4) = result (A0 m c) (A1 m c) (A2 m c) (A3 m c) (A4 m c)
          shapeCasts_S2048x3x128x8_S2048x3x1024 shapeCasts_S2048x3x1024_S2048x3072 shapeCasts_S2048x8x1024_S2048x8x128x8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.ReferenceIdeal.Hand

end
-- ==== Proof.lean ====
/- The proof of `Cert.Claim` (proofs.«165852_g2000309644460178_pallasbulk_134_2_alg».proof.Defs).

   Both programs compute, for a batch of 2048 samples with 3 input channels on a 128×8 grid of positions,

       y = Linear(ReLU(Conv1x1(x) + bc)) + b2,

   the linear layer acting on the last axis of width 8 and spelt as a product of each 128-position chunk with one
   128×128 tile W = kron(I_16, W2ᵀ) plus a bias row. At the ideal values (extended reals, exact operations) the result at
   sample b, output channel co and position l is

       (∑ c < 128, act(b, co, 128·(l / 128) + c) · W(c, l % 128)) + B(0, l % 128),
       act(b, co, p) = max(((x(b,0,p)·wc(co,0) + x(b,1,p)·wc(co,1)) + x(b,2,p)·wc(co,2)) + bc(co,0), 0)

   (Proof/TileSpec.lean, Proof/TileResult.lean). The kernel takes 64 samples per grid point and lays the eight output
   channels of a sample side by side in one row of a 2048×8192 array; the reference takes 32 samples per grid point and
   gives each sample and channel its own row of a 16384×1024 array; the kernel asks for the product at the default
   precision and the reference at the highest. None of this is a difference at the ideal values: every precision is the
   exact sum over the same 128 terms in the same order, a row of the result depends on the same row of the input only, and
   the two arrays list the same numbers in the same row-major order, so the host's recast to 2048×8×1024 makes them one
   array. No law that could fail at an infinity is used: the two sides are the same sums and products, term by term, and
   the precondition is never opened.

   Kernel side: Proof/KBlock.lean (what the body leaves in its buffer), Proof/KArray.lean (the array after the 32 points),
   Proof/KTail.lean (the host's recasts and the run). Reference side: Proof/RefBlock.lean, Proof/RefArray.lean,
   Proof/RefTail.lean. Shared: Proof/LibMatmulPlain.lean and Proof/LibTileChunk.lean (a chunk times a tile plus a row, at an
   index), Proof/TileRows.lean (rows are independent). The three frames are the generated frame certificates; the ideal
   pass rewrote nothing, so the kernel's idealization is its own text read at the ideal values. -/
import proofs.«165852_g2000309644460178_pallasbulk_134_2_alg».proof.Defs
import proofs.«165852_g2000309644460178_pallasbulk_134_2_alg».proof.Proof.Gen.Kernel
import proofs.«165852_g2000309644460178_pallasbulk_134_2_alg».proof.Proof.Gen.Kernel.Frame
import proofs.«165852_g2000309644460178_pallasbulk_134_2_alg».proof.Proof.Gen.KernelIdeal
import proofs.«165852_g2000309644460178_pallasbulk_134_2_alg».proof.Proof.Gen.KernelIdeal.Frame
import proofs.«165852_g2000309644460178_pallasbulk_134_2_alg».proof.Proof.Gen.ReferenceIdeal
import proofs.«165852_g2000309644460178_pallasbulk_134_2_alg».proof.Proof.Gen.ReferenceIdeal.Frame
import proofs.«165852_g2000309644460178_pallasbulk_134_2_alg».proof.Proof.Gen.Pre_finite_inputs
import proofs.«165852_g2000309644460178_pallasbulk_134_2_alg».proof.Proof.KTail
import proofs.«165852_g2000309644460178_pallasbulk_134_2_alg».proof.Proof.RefTail
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The ideal pass rewrote no operation of the kernel: there is nothing to preserve. -/
theorem preserves : Cert.preserves_Kernel_KernelIdeal := trivial

/-- From memories that agree on the five arguments, the kernel's result buffer ends at the specification's `result` of
    its arguments and the reference's at the same function of its own; the arguments agree, so the results are equal,
    element by element. -/
theorem algebraic : Cert.algebraic_KernelIdeal_ReferenceIdeal := by
  intro m ρ m' ρ' _ hagree
  refine ⟨fun c => Cert.TileSpec.result (Cert.KernelIdeal.Hand.A0 m c) (Cert.KernelIdeal.Hand.A1 m c)
      (Cert.KernelIdeal.Hand.A2 m c) (Cert.KernelIdeal.Hand.A3 m c) (Cert.KernelIdeal.Hand.A4 m c)
      Cert.KernelIdeal.Gen.shapeCasts_S2048x3x128x8_S2048x3x1024 Cert.KernelIdeal.Gen.shapeCasts_S2048x3x1024_S2048x3072
      Cert.KernelIdeal.Gen.shapeCasts_S2048x8x1024_S2048x8x128x8,
    Cert.KernelIdeal.Hand.run m ρ, ?_⟩
  refine (θ_run Cert.ReferenceIdeal.defs _ _).mono (fun r h c => ?_) (Cert.ReferenceIdeal.Hand.run m' ρ')
  obtain ⟨hv, h0, h1, h2, h3, h4⟩ := h c
  obtain ⟨e0, e1, e2, e3, e4⟩ := hagree c
  refine ⟨hv.trans ?_, h0, h1, h2, h3, h4⟩
  rw [show Cert.ReferenceIdeal.Hand.A0 m' c = Cert.KernelIdeal.Hand.A0 m c from e0,
    show Cert.ReferenceIdeal.Hand.A1 m' c = Cert.KernelIdeal.Hand.A1 m c from e1,
    show Cert.ReferenceIdeal.Hand.A2 m' c = Cert.KernelIdeal.Hand.A2 m c from e2,
    show Cert.ReferenceIdeal.Hand.A3 m' c = Cert.KernelIdeal.Hand.A3 m c from e3,
    show Cert.ReferenceIdeal.Hand.A4 m' c = Cert.KernelIdeal.Hand.A4 m c from e4]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
